-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S128x32 : Shape := ⟨2, ![128, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S128x32 : S_.BroadcastsInDim S128x32 (![] : Fin 0 → Fin S128x32.rank)
  reducesTo_S128x32_S_d0_1 : S128x32.ReducesTo [0, 1] S_

variable [Facts]

def fn_part3 {F : FTy → Type} [FloatOps F] (main_arg13 : FVec F S32 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg9 : FVec F S64 .f32) (main_arg10 : FVec F S64x32 .f32) (main_arg11 : FVec F S32 .f32) (main_arg12 : FVec F S128x32 .f32) (main_arg13 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S128x32 .f32 := Host.absf main_arg12
  let main_cst_18 : FVec F S_ .f32 := constant S_ .f32 0x7F800000#32
  let main_v50 : FVec F S128x32 .f32 := broadcastInDim S128x32 ![] bcast_S_S128x32 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S128x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S64x64 .f32) (main_arg7 : FVec F S64 .f32) (main_arg8 : FVec F S64x64 .f32) (main_arg9 : FVec F S64 .f32) (main_arg10 : FVec F S64x32 .f32) (main_arg11 : FVec F S32 .f32) (main_arg12 : FVec F S128x32 .f32) (main_arg13 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S128x32 : Shape := ⟨2, ![128, 32]⟩
abbrev S_ : Shape := ⟨0, ![]⟩
abbrev S100000 : Shape := ⟨1, ![100000]⟩
abbrev S1600000x1 : Shape := ⟨2, ![1600000, 1]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩
abbrev S1600000x32 : Shape := ⟨2, ![1600000, 32]⟩

abbrev nBuf : Space → Nat
  | .hbm => 137
  | .vmem => 48
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S128x32, .f32⟩
  | 13 => ⟨S32, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000x128, .bf16⟩
  | 50 => ⟨S128x32, .bf16⟩
  | 51 => ⟨S1x32, .f32⟩
  | 52 => ⟨S100000x32, .f32⟩
  | 53 => ⟨S100000x128, .bf16⟩
  | 54 => ⟨S128x64, .bf16⟩
  | 55 => ⟨S100000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x1, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S1x64, .f32⟩
  | 73 => ⟨S100000x64, .f32⟩
  | 74 => ⟨S100000x64, .bf16⟩
  | 75 => ⟨S64x64, .bf16⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S1600000x1, .f32⟩
  | 87 => ⟨S1600000x64, .f32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S1x64, .f32⟩
  | 94 => ⟨S100000x64, .f32⟩
  | 95 => ⟨S100000x64, .bf16⟩
  | 96 => ⟨S64x64, .bf16⟩
  | 97 => ⟨S100000x64, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x64, .f32⟩
  | 107 => ⟨S1600000x1, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S1x64, .f32⟩
  | 115 => ⟨S100000x64, .f32⟩
  | 116 => ⟨S100000x64, .bf16⟩
  | 117 => ⟨S64x32, .bf16⟩
  | 118 => ⟨S100000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S100000x128, .f32⟩

abbrev hbmTy0_1 (i : Nat) : BufTy := match i % 128 with
  | 0 => ⟨S1600000x1, .f32⟩
  | 1 => ⟨S1600000x32, .f32⟩
  | 2 => ⟨S1600000x32, .f32⟩
  | 3 => ⟨S_, .f32⟩
  | 4 => ⟨S100000x32, .f32⟩
  | 5 => ⟨S1600000x1, .i32⟩
  | 6 => ⟨S100000x32, .f32⟩
  | 7 => ⟨S1x32, .f32⟩
  | 8 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .bf16⟩
  | .local _ .vmem, ⟨1, _⟩ => ⟨S10000x128, .bf16⟩
  | .local _ .vmem, ⟨2, _⟩ => ⟨S128x32, .bf16⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x128, .bf16⟩
  | .local _ .vmem, ⟨7, _⟩ => ⟨S10000x128, .bf16⟩
  | .local _ .vmem, ⟨8, _⟩ => ⟨S128x64, .bf16⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .bf16⟩
  | .local _ .vmem, ⟨17, _⟩ => ⟨S10000x64, .bf16⟩
  | .local _ .vmem, ⟨18, _⟩ => ⟨S64x64, .bf16⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .bf16⟩
  | .local _ .vmem, ⟨27, _⟩ => ⟨S10000x64, .bf16⟩
  | .local _ .vmem, ⟨28, _⟩ => ⟨S64x64, .bf16⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .bf16⟩
  | .local _ .vmem, ⟨37, _⟩ => ⟨S10000x64, .bf16⟩
  | .local _ .vmem, ⟨38, _⟩ => ⟨S64x32, .bf16⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S1x32, .f32⟩
  | .local _ .vmem, ⟨44, _⟩ => ⟨S10000x32, .f32⟩
  | .local _ .vmem, ⟨45, _⟩ => ⟨S10000x32, .f32⟩
  | .local _ .vmem, ⟨46, _⟩ => ⟨S10000x32, .f32⟩
  | .local _ .vmem, ⟨47, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_15 : Ref sig .tc := ⟨.hbm, 119, rfl⟩
abbrev main_v86 : Ref sig .tc := ⟨.hbm, 120, rfl⟩
abbrev main_v87 : Ref sig .tc := ⟨.hbm, 121, rfl⟩
abbrev main_c_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg0_1 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg2_1 : Ref sig .tc := ⟨.vmem, 45, rfl⟩
abbrev cc8_stg3_0 : Ref sig .tc := ⟨.vmem, 46, rfl⟩
abbrev cc8_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem2_1 : DmaSem sig := 40
abbrev cc8_sem0_0 : DmaSem sig := 41
abbrev cc8_sem0_1 : DmaSem sig := 42
abbrev cc8_sem1_0 : DmaSem sig := 43
abbrev cc8_sem2_0 : DmaSem sig := 44
abbrev cc8_sem2_1 : DmaSem sig := 45
abbrev cc8_sem3_0 : DmaSem sig := 46
abbrev cc8_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S10000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bitsLt_bf16_f32 : FTy.bits .bf16 < FTy.bits .f32
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S10000x32_S10000x32 : S10000x32.ShapeCasts S10000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x32_S10000x32_1_0_0_1_n_n_wf : DotDims.WF S10000x128 S128x32 S10000x32 [1] [0] [0] [1] [] []
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .bf16 = 32 ∨ (Rect.block (s := S128x32) S128x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .bf16 = 32 ∨ (Rect.block (s := S100000x64) S10000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .bf16 = 32 ∨ (Rect.block (s := S64x64) S64x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .bf16 = 32 ∨ (Rect.block (s := S100000x64) S10000x64.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .bf16 = 32 ∨ (Rect.block (s := S64x64) S64x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .bf16 = 32 ∨ (Rect.block (s := S100000x64) S10000x64.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .bf16 = 32 ∨ (Rect.block (s := S64x32) S64x32.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S100000x32.size a
  hwx7_2 : ∀ i : grid7.Coords, EltTy.bits .f32 = 32 ∨ (Rect.block (s := S100000x32) S10000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x32.size a ≤ S100000x32.size a
  hwx8_2 : ∀ i : grid8.Coords, EltTy.bits .f32 = 32 ∨ (Rect.block (s := S100000x32) S10000x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x32.size a ≤ S100000x32.size a
  hwx8_3 : ∀ i : grid8.Coords, EltTy.bits .f32 = 32 ∨ (Rect.block (s := S100000x32) S10000x32.size (cc8_transform_3 i) (hinb8_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v66) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v67) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v83) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v84) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v98) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v28) S10000x32.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v100) S10000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S128x32 : Shape := ⟨2, ![128, 32]⟩
abbrev S_ : Shape := ⟨0, ![]⟩
abbrev S100000 : Shape := ⟨1, ![100000]⟩
abbrev S1600000x1 : Shape := ⟨2, ![1600000, 1]⟩
abbrev S100000x32 : Shape := ⟨2, ![100000, 32]⟩
abbrev S1x32 : Shape := ⟨2, ![1, 32]⟩
abbrev S100000x64 : Shape := ⟨2, ![100000, 64]⟩
abbrev S1600000x64 : Shape := ⟨2, ![1600000, 64]⟩
abbrev S1x64 : Shape := ⟨2, ![1, 64]⟩
abbrev S1600000x32 : Shape := ⟨2, ![1600000, 32]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x32, .f32⟩
  | 11 => ⟨S32, .f32⟩
  | 12 => ⟨S128x32, .f32⟩
  | 13 => ⟨S32, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S100000x32, .f32⟩
  | 50 => ⟨S1x32, .f32⟩
  | 51 => ⟨S100000x32, .f32⟩
  | 52 => ⟨S100000x32, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x64, .f32⟩
  | 86 => ⟨S1600000x1, .f32⟩
  | 87 => ⟨S1600000x64, .f32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x32, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x32, .f32⟩
  | 4 => ⟨S1600000x1, .f32⟩
  | 5 => ⟨S1600000x32, .f32⟩
  | 6 => ⟨S1600000x32, .f32⟩
  | 7 => ⟨S_, .f32⟩
  | 8 => ⟨S100000x32, .f32⟩
  | 9 => ⟨S1600000x1, .i32⟩
  | 10 => ⟨S100000x32, .f32⟩
  | 11 => ⟨S1x32, .f32⟩
  | 12 => ⟨S100000x32, .f32⟩
  | 13 => ⟨S100000x32, .f32⟩
  | 14 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_v31 : Ref sig .tc := ⟨.hbm, 56, rfl⟩
abbrev main_c_7 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_cst : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_c_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call2_cst : Ref sig .tc := ⟨.hbm, 96, rfl⟩
abbrev main_call2_v0 : Ref sig .tc := ⟨.hbm, 97, rfl⟩
abbrev main_v64 : Ref sig .tc := ⟨.hbm, 98, rfl⟩
abbrev main_v65 : Ref sig .tc := ⟨.hbm, 99, rfl⟩
abbrev main_c_12 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_14 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call3_cst : Ref sig .tc := ⟨.hbm, 119, rfl⟩
abbrev main_call3_v0 : Ref sig .tc := ⟨.hbm, 120, rfl⟩
abbrev main_v82 : Ref sig .tc := ⟨.hbm, 121, rfl⟩
abbrev main_v83 : Ref sig .tc := ⟨.hbm, 122, rfl⟩
abbrev main_c_15 : Ref sig .tc := ⟨.hbm, 123, rfl⟩
abbrev main_v84 : Ref sig .tc := ⟨.hbm, 124, rfl⟩
abbrev main_v85 : Ref sig .tc := ⟨.hbm, 125, rfl⟩
abbrev main_c_16 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_17 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x32_S100000x32_1_0_0_1_n_n_wf : DotDims.WF S100000x128 S128x32 S100000x32 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The idealized kernel's run with its result named.

  Every weakly fair execution of the kernel's @main terminates without a fault, and in the final state every
  TensorCore buffer that outlives the regions holds what the last boundary of the program's twenty segments holds
  (`W20`): in particular the result array, and each argument array, which no segment writes, as launched.  This is the
  launch theorem for a program of several regions applied to the program's segments exactly as for its frame, with the
  result's buffer read off the same final state beside the arguments'.
-/
import proofs.«123567_j45311904973170_1_alg».proof.Proof.Gen.KernelIdeal.Frame

set_option maxRecDepth 16384

noncomputable section

namespace Cert.KernelIdeal.Hand.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v100) = W20 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v100 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c)⟩)

end Cert.KernelIdeal.Hand.Run

end
-- ==== Proof.Keep.lean ====
/-
  Buffers that a stretch of host operations, or a kernel region, does not write keep their contents across it.

  The program's @main is twenty segments — eleven stretches of host operations and nine kernel regions — and the
  buffer contents at the boundary after segment j are `W j`.  For each host stretch the list of the buffers its
  operations write; a buffer outside the list holds after the stretch what it held before.  A region changes only its
  own windows' arrays.  These carry an argument array, the per-message coefficients and the residual matrix from
  where they were written to where a later segment reads them.
-/
import proofs.«123567_j45311904973170_1_alg».proof.Proof.Gen.KernelIdeal.Frame

set_option maxRecDepth 16384

noncomputable section

open Idealize.ShloMosaic Idealize.ShloMosaic.TcCoe Idealize.SL.Sem

namespace Cert.KernelIdeal.Hand.Keep

open Cert.KernelIdeal Cert.KernelIdeal.Gen

variable {F : FTy → Type} [FloatOps F]
variable (m : (ℓ : Loc nD τ sig) → Buf (Elt F) ℓ) (ρ : Dev nD → PrngReg)

/-- The buffers the operations of `hostOps0` write. -/
abbrev hostOps0_W : List (Ref sig .tc) := [main_cst, main_v0, main_v1, main_v2, main_cst_0, main_v3, main_v4, main_cst_1, main_v5, main_v6, main_v7, main_cst_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep1 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The buffers the operations of `hostOps0_1` write. -/
abbrev hostOps0_1_W : List (Ref sig .tc) := [main_call0_v0, main_call0_v1, main_v8]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep2 (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

/-- The buffers the operations of `hostOps0_2` write. -/
abbrev hostOps0_2_W : List (Ref sig .tc) := [main_c, main_v9, main_v10, main_c_3, main_v11, main_v12, main_v13, main_v14, main_v15, main_v16, main_c_4, main_v17, main_v18, main_c_5, main_v19, main_v20, main_v21, main_v22, main_v23, main_v24, main_v25, main_v26, main_v27]
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep3 (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

theorem keep4 (c : Dev nD) (r : Ref sig .tc) (h : ∀ w, Pipeline.arrRef spec0 w ≠ r) :
    W4 m ρ c (Proc.devRef .tc r) = W3 m ρ c (Proc.devRef .tc r) :=
  W4_of_ne m ρ c r h

/-- The buffers the operations of `hostOps1` write. -/
abbrev hostOps1_W : List (Ref sig .tc) := [main_v29, main_v30]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep5 (c : Dev nD) (r : Ref sig .tc) (h : r ∉ hostOps1_W) :
    W5 m ρ c (Proc.devRef .tc r) = W4 m ρ c (Proc.devRef .tc r) :=
  StableHlo.after_of_writes_sub hostOps1 _ hostOps1_writes h

theorem keep6 (c : Dev nD) (r : Ref sig .tc) (h : ∀ w, Pipeline.arrRef spec1 w ≠ r) :
    W6 m ρ c (Proc.devRef .tc r) = W5 m ρ c (Proc.devRef .tc r) :=
  W6_of_ne m ρ c r h

/-- The buffers the operations of `hostOps2` write. -/
abbrev hostOps2_W : List (Ref sig .tc) := [main_c_6, main_v32, main_v33, main_c_7, main_v34, main_v35, main_v36, main_v37, main_v38, main_v39, main_v40, main_v41, main_cst_8, main_v42, main_v43, main_v44, main_v45]
theorem hostOps2_writes : (hostOps2 : List (HloOp τ sig (Elt F))).Forall fun op => op.writes ⊆ (hostOps2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep7 (c : Dev nD) (r : Ref sig .tc) (h : r ∉ hostOps2_W) :
    W7 m ρ c (Proc.devRef .tc r) = W6 m ρ c (Proc.devRef .tc r) :=
  StableHlo.after_of_writes_sub hostOps2 _ hostOps2_writes h

theorem keep8 (c : Dev nD) (r : Ref sig .tc) (h : ∀ w, Pipeline.arrRef spec2 w ≠ r) :
    W8 m ρ c (Proc.devRef .tc r) = W7 m ρ c (Proc.devRef .tc r) :=
  W8_of_ne m ρ c r h

/-- The buffers the operations of `hostOps3` write. -/
abbrev hostOps3_W : List (Ref sig .tc) := [main_v47, main_v48]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep9 (c : Dev nD) (r : Ref sig .tc) (h : r ∉ hostOps3_W) :
    W9 m ρ c (Proc.devRef .tc r) = W8 m ρ c (Proc.devRef .tc r) :=
  StableHlo.after_of_writes_sub hostOps3 _ hostOps3_writes h

theorem keep10 (c : Dev nD) (r : Ref sig .tc) (h : ∀ w, Pipeline.arrRef spec3 w ≠ r) :
    W10 m ρ c (Proc.devRef .tc r) = W9 m ρ c (Proc.devRef .tc r) :=
  W10_of_ne m ρ c r h

/-- The buffers the operations of `hostOps4` write. -/
abbrev hostOps4_W : List (Ref sig .tc) := [main_c_9, main_v50, main_v51, main_c_10, main_v52, main_v53, main_v54, main_v55, main_v56, main_v57, main_v58, main_v59, main_cst_11, main_v60, main_v61, main_v62, main_v63]
theorem hostOps4_writes : (hostOps4 : List (HloOp τ sig (Elt F))).Forall fun op => op.writes ⊆ (hostOps4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep11 (c : Dev nD) (r : Ref sig .tc) (h : r ∉ hostOps4_W) :
    W11 m ρ c (Proc.devRef .tc r) = W10 m ρ c (Proc.devRef .tc r) :=
  StableHlo.after_of_writes_sub hostOps4 _ hostOps4_writes h

theorem keep12 (c : Dev nD) (r : Ref sig .tc) (h : ∀ w, Pipeline.arrRef spec4 w ≠ r) :
    W12 m ρ c (Proc.devRef .tc r) = W11 m ρ c (Proc.devRef .tc r) :=
  W12_of_ne m ρ c r h

/-- The buffers the operations of `hostOps5` write. -/
abbrev hostOps5_W : List (Ref sig .tc) := [main_v65, main_v66]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep13 (c : Dev nD) (r : Ref sig .tc) (h : r ∉ hostOps5_W) :
    W13 m ρ c (Proc.devRef .tc r) = W12 m ρ c (Proc.devRef .tc r) :=
  StableHlo.after_of_writes_sub hostOps5 _ hostOps5_writes h

theorem keep14 (c : Dev nD) (r : Ref sig .tc) (h : ∀ w, Pipeline.arrRef spec5 w ≠ r) :
    W14 m ρ c (Proc.devRef .tc r) = W13 m ρ c (Proc.devRef .tc r) :=
  W14_of_ne m ρ c r h

/-- The buffers the operations of `hostOps6` write. -/
abbrev hostOps6_W : List (Ref sig .tc) := [main_c_12, main_v68, main_v69, main_c_13, main_v70, main_v71, main_v72, main_v73, main_v74, main_v75, main_v76, main_v77, main_cst_14, main_v78, main_v79, main_v80, main_v81]
theorem hostOps6_writes : (hostOps6 : List (HloOp τ sig (Elt F))).Forall fun op => op.writes ⊆ (hostOps6_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep15 (c : Dev nD) (r : Ref sig .tc) (h : r ∉ hostOps6_W) :
    W15 m ρ c (Proc.devRef .tc r) = W14 m ρ c (Proc.devRef .tc r) :=
  StableHlo.after_of_writes_sub hostOps6 _ hostOps6_writes h

theorem keep16 (c : Dev nD) (r : Ref sig .tc) (h : ∀ w, Pipeline.arrRef spec6 w ≠ r) :
    W16 m ρ c (Proc.devRef .tc r) = W15 m ρ c (Proc.devRef .tc r) :=
  W16_of_ne m ρ c r h

/-- The buffers the operations of `hostOps7` write. -/
abbrev hostOps7_W : List (Ref sig .tc) := [main_v83, main_v84]
theorem hostOps7_writes : (hostOps7 : List (HloOp τ sig (Elt F))).Forall fun op => op.writes ⊆ (hostOps7_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep17 (c : Dev nD) (r : Ref sig .tc) (h : r ∉ hostOps7_W) :
    W17 m ρ c (Proc.devRef .tc r) = W16 m ρ c (Proc.devRef .tc r) :=
  StableHlo.after_of_writes_sub hostOps7 _ hostOps7_writes h

theorem keep18 (c : Dev nD) (r : Ref sig .tc) (h : ∀ w, Pipeline.arrRef spec7 w ≠ r) :
    W18 m ρ c (Proc.devRef .tc r) = W17 m ρ c (Proc.devRef .tc r) :=
  W18_of_ne m ρ c r h

/-- The buffers the operations of `hostOps8` write. -/
abbrev hostOps8_W : List (Ref sig .tc) := [main_c_15, main_v86, main_v87, main_c_16, main_v88, main_v89, main_v90, main_v91, main_v92, main_v93, main_v94, main_v95, main_cst_17, main_v96, main_v97, main_v98, main_v99]
theorem hostOps8_writes : (hostOps8 : List (HloOp τ sig (Elt F))).Forall fun op => op.writes ⊆ (hostOps8_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem keep19 (c : Dev nD) (r : Ref sig .tc) (h : r ∉ hostOps8_W) :
    W19 m ρ c (Proc.devRef .tc r) = W18 m ρ c (Proc.devRef .tc r) :=
  StableHlo.after_of_writes_sub hostOps8 _ hostOps8_writes h

theorem keep20 (c : Dev nD) (r : Ref sig .tc) (h : ∀ w, Pipeline.arrRef spec8 w ≠ r) :
    W20 m ρ c (Proc.devRef .tc r) = W19 m ρ c (Proc.devRef .tc r) :=
  W20_of_ne m ρ c r h

end Cert.KernelIdeal.Hand.Keep

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«123567_j45311904973170_1_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«123567_j45311904973170_1_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.Pieces.lean ====
/-
  One more dense piece beside the product, bias-then-rectifier and bias of LibDense.lean: a matrix shifted by a one-row
  bias and then added, entry by entry, to a second matrix of the same shape — the last layer's output plus the
  residual branch.  On the extended reals; general in the extents.
-/
import proofs.«123567_j45311904973170_1_alg».proof.Proof.LibRowBlocks

noncomputable section

namespace Cert.Pieces

open Idealize.ShloMosaic Idealize.ShloMosaic.ValueIdx Cert.Dense

/-- Entry (p, j) is (x (p, j) + b (0, j)) + r (p, j). -/
def shiftAdd {A M : ℕ} (x : (⟨2, ![A, M]⟩ : Shape).Idx → EReal) (b : (⟨2, ![1, M]⟩ : Shape).Idx → EReal)
    (r : (⟨2, ![A, M]⟩ : Shape).Idx → EReal) : (⟨2, ![A, M]⟩ : Shape).Idx → EReal :=
  fun i => shift x b i + r i

theorem shiftAdd_apply {A M : ℕ} (x : (⟨2, ![A, M]⟩ : Shape).Idx → EReal) (b : (⟨2, ![1, M]⟩ : Shape).Idx → EReal)
    (r : (⟨2, ![A, M]⟩ : Shape).Idx → EReal) (i : (⟨2, ![A, M]⟩ : Shape).Idx) :
    shiftAdd x b r i = shift x b i + r i := rfl

/-- As the sum of two whole arrays. -/
theorem addf_shift_eq {A M : ℕ} (x : (⟨2, ![A, M]⟩ : Shape).Idx → EReal) (b : (⟨2, ![1, M]⟩ : Shape).Idx → EReal)
    (r : (⟨2, ![A, M]⟩ : Shape).Idx → EReal) :
    addf (F := Ideal) (φ := .f32) (shift x b) r = shiftAdd x b r := rfl

end Cert.Pieces

end
-- ==== Proof.Spec.lean ====
/-
  What both programs compute, as one function of the fourteen argument arrays on the extended reals.

  A four-layer graph convolution with a linear residual branch over N = 100000 nodes and E = 1600000 messages.
  From the messages' weights: the weighted in-degree of every node (`degree`), its guarded inverse square root
  (`invRoot`: where the degree is positive, 1/sqrt (max (degree, ε)), elsewhere 0), and per message the coefficient
  weight · invRoot (source) · invRoot (target) (`coefficient`; a negative node number counts from the end).  One
  aggregation step gathers the rows of a feature matrix at the messages' sources, scales each by its coefficient and
  adds it into the row of the message's target (`aggregate64`, `aggregate32`: 64 or 32 features).  A layer is a
  matrix product, an aggregation, a bias row and (but for the last) the maximum with zero; the result is the last
  layer's output plus the residual x · Wres + bres (`network`).

  The index arithmetic, gathers and scatter-adds are spelt with the host operations both programs use; the dense
  steps are the functions of LibDense.lean and Pieces.lean.
-/
import proofs.«123567_j45311904973170_1_alg».proof.KernelIdeal
import proofs.«123567_j45311904973170_1_alg».proof.Proof.Gen.KernelIdeal
import proofs.«123567_j45311904973170_1_alg».proof.Proof.LibRowBlocks
import proofs.«123567_j45311904973170_1_alg».proof.Proof.Pieces

noncomputable section

namespace Cert.Spec

open Idealize.ShloMosaic Cert.KernelIdeal Cert.KernelIdeal.Facts₀ Cert.Dense Cert.Pieces

/-- A vector of node numbers, as an array of 32-bit words. -/
abbrev Nodes := IVec S1600000 32
/-- A vector with one extended real per message. -/
abbrev PerMessage := FVec Ideal S1600000 .f32

/-- A negative node number counts from the end: n < 0 becomes n + 100000. -/
def wrap (x : Nodes) : Nodes :=
  (select (cmpi .slt x (broadcastInDim S1600000 ![] bcast_S_S1600000 (constantI S_ 32 0#32))) (addi x (broadcastInDim S1600000 ![] bcast_S_S1600000 (constantI S_ 32 100000#32))) x)

/-- The weighted in-degree of every node: the messages' weights added into their targets. -/
def degree (x2 : Nodes) (x3 : PerMessage) : FVec Ideal S100000 .f32 :=
  (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 x2) x3)

/-- Where the degree is positive its inverse square root (the degree first raised to at least ε), elsewhere zero. -/
def invRoot (x2 : Nodes) (x3 : PerMessage) : FVec Ideal S100000 .f32 :=
  select (cmpf (F := Ideal) .ogt (degree x2 x3) (broadcastInDim S100000 ![] bcast_S_S100000 (constant (F := Ideal) S_ .f32 0x00000000#32))) (Host.rsqrt (F := Ideal) (maximumf (F := Ideal) (degree x2 x3) (broadcastInDim S100000 ![] bcast_S_S100000 (constant (F := Ideal) S_ .f32 0x2B8CBCCC#32)))) (broadcastInDim S100000 ![] bcast_S_S100000 (id (constant (F := Ideal) S_ .f32 0x00000000#32)))

/-- Per message: its weight times the inverse roots of its source's and its target's degrees. -/
def coefficient (x1 x2 : Nodes) (x3 : PerMessage) : PerMessage :=
  mulf (F := Ideal) (mulf (F := Ideal) x3 (Host.gather gather_S100000_S1600000x1_S1600000_n_0_n_n_0_1_1 (invRoot x2 x3) (broadcastInDim S1600000x1 ![0] bcast_S1600000_S1600000x1_0 (wrap x1)))) (Host.gather gather_S100000_S1600000x1_S1600000_n_0_n_n_0_1_1 (invRoot x2 x3) (broadcastInDim S1600000x1 ![0] bcast_S1600000_S1600000x1_0 (wrap x2)))

/-- One aggregation step on 64 features: rows gathered at the sources, scaled by the coefficients, added into the targets. -/
def aggregate64 (h : FVec Ideal S100000x64 .f32) (x1 x2 : Nodes) (cf : PerMessage) :
    FVec Ideal S100000x64 .f32 :=
  Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 x2) (mulf (F := Ideal) (Host.gather gather_S100000x64_S1600000x1_S1600000x64_1_0_n_n_0_1_164 h (broadcastInDim S1600000x1 ![0] bcast_S1600000_S1600000x1_0 (wrap x1))) (broadcastInDim S1600000x64 ![0, 1] bcast_S1600000x1_S1600000x64_0_1 (broadcastInDim S1600000x1 ![0] bcast_S1600000_S1600000x1_0 cf)))

/-- The same on 32 features. -/
def aggregate32 (h : FVec Ideal S100000x32 .f32) (x1 x2 : Nodes) (cf : PerMessage) :
    FVec Ideal S100000x32 .f32 :=
  Host.scatterAdd (F := Ideal) scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 x2) (mulf (F := Ideal) (Host.gather gather_S100000x32_S1600000x1_S1600000x32_1_0_n_n_0_1_132 h (broadcastInDim S1600000x1 ![0] bcast_S1600000_S1600000x1_0 (wrap x1))) (broadcastInDim S1600000x32 ![0, 1] bcast_S1600000x1_S1600000x32_0_1 (broadcastInDim S1600000x1 ![0] bcast_S1600000_S1600000x1_0 cf)))

/-- A bias vector of 64 entries as a one-row matrix. -/
def row64 (b : FVec Ideal S64 .f32) : FVec Ideal S1x64 .f32 :=
  shapeCast S1x64 b shapeCasts_S64_S1x64
/-- A bias vector of 32 entries as a one-row matrix. -/
def row32 (b : FVec Ideal S32 .f32) : FVec Ideal S1x32 .f32 :=
  shapeCast S1x32 b shapeCasts_S32_S1x32

/-- A hidden layer: product with the weights, aggregation, bias, maximum with zero. -/
def hidden (x : FVec Ideal S100000x64 .f32) (w : FVec Ideal S64x64 .f32)
    (b : FVec Ideal S64 .f32) (x1 x2 : Nodes) (cf : PerMessage) :
    FVec Ideal S100000x64 .f32 :=
  act (A := 100000) (M := 64) (aggregate64 (prod (A := 100000) (K := 64) (M := 64) x w) x1 x2 cf) (row64 b)

/-- The first layer, from the 128 input features. -/
def first (x0 : FVec Ideal S100000x128 .f32) (w : FVec Ideal S128x64 .f32)
    (b : FVec Ideal S64 .f32) (x1 x2 : Nodes) (cf : PerMessage) :
    FVec Ideal S100000x64 .f32 :=
  act (A := 100000) (M := 64) (aggregate64 (prod (A := 100000) (K := 128) (M := 64) x0 w) x1 x2 cf) (row64 b)

/-- The residual branch: x · Wres + bres. -/
def residual (x0 : FVec Ideal S100000x128 .f32) (w : FVec Ideal S128x32 .f32)
    (b : FVec Ideal S32 .f32) : FVec Ideal S100000x32 .f32 :=
  shift (A := 100000) (M := 32) (prod (A := 100000) (K := 128) (M := 32) x0 w) (row32 b)

/-- The last layer (no maximum) plus a residual matrix. -/
def last (x : FVec Ideal S100000x64 .f32) (w : FVec Ideal S64x32 .f32)
    (b : FVec Ideal S32 .f32) (x1 x2 : Nodes) (cf : PerMessage)
    (r : FVec Ideal S100000x32 .f32) : FVec Ideal S100000x32 .f32 :=
  shiftAdd (A := 100000) (M := 32) (aggregate32 (prod (A := 100000) (K := 64) (M := 32) x w) x1 x2 cf) (row32 b) r

/-- The whole network. -/
def network (x0 : FVec Ideal S100000x128 .f32) (x1 x2 : Nodes) (x3 : PerMessage)
    (x4 : FVec Ideal S128x64 .f32) (x5 : FVec Ideal S64 .f32)
    (x6 : FVec Ideal S64x64 .f32) (x7 : FVec Ideal S64 .f32)
    (x8 : FVec Ideal S64x64 .f32) (x9 : FVec Ideal S64 .f32)
    (x10 : FVec Ideal S64x32 .f32) (x11 : FVec Ideal S32 .f32)
    (x12 : FVec Ideal S128x32 .f32) (x13 : FVec Ideal S32 .f32) :
    FVec Ideal S100000x32 .f32 :=
  last (hidden (hidden (first x0 x4 x5 x1 x2 (coefficient x1 x2 x3)) x6 x7 x1 x2 (coefficient x1 x2 x3)) x8 x9 x1 x2 (coefficient x1 x2 x3))
    x10 x11 x1 x2 (coefficient x1 x2 x3) (residual x0 x12 x13)

end Cert.Spec

end
-- ==== Proof.Region0.lean ====
/-
  Region 0 of the kernel: the residual branch, a row-tiled matrix product plus a bias row.

  The grid has ten points; point t multiplies rows 10000·t … 10000·t + 9999 of the input (128 columns) by the whole
  128 × 32 weight matrix and adds the one-row bias to every row of the result, writing the same rows of the output.
  After the ten points the output array is the product of the whole matrices shifted by the bias row, entry (p, j) =
  Σ_k x (p, k) · w (k, j) + b (0, j).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R0

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's record is a plain product: rows of the left factor against columns of the right one. -/
theorem hl0 (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem hl1 (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
theorem hr0 (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
theorem hr1 (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- One point's arithmetic: the product of the two blocks plus the bias row spread down the rows. -/
theorem pay_eq (x0 : Vec Ideal S10000x128 .bf16) (x1 : Vec Ideal S128x32 .bf16) (x2 : Vec Ideal S1x32 .f32) :
    k0_pay1 x0 x1 x2 = shift (A := 10000) (M := 32) (prod (A := 10000) (K := 128) (M := 32) x0 x1) x2 := by
  unfold k0_pay1
  dsimp only
  rw [shapeCast_self x0, shapeCast_self x1, matmul_zero_eq_prod dot_S10000x128_S128x32_S10000x32_1_0_0_1_n_n rfl rfl hl0 hl1 hr0 hr1 none x0 x1]
  exact shift_plain (A := 10000) (M := 32) _ x2 _ _

/-- Where each window's block sits at point t. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What point t writes back is block t of the shifted product of the whole matrices. -/
theorem flushed_eq (c : Dev nD) (t : Fin cfg0.N) :
    (dat0 V c).flushed 3 t = ((cfg0.win 3).blk t).view.read (Elt Ideal)
      (shift (A := 100000) (M := 32) (prod (A := 100000) (K := 128) (M := 32) (V c main_v25) (V c main_v26)) (V c main_v27)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x32) hz, View.ld_unit_zero (S := S1x32) hz]
  rw [pay_eq]
  obtain ⟨e0, e1, e2, e3, e4, e5, e6, e7⟩ := idx_facts t
  funext j
  refine shift_reindex (A := 10000) (M := 32) (A' := 100000) _ (prod (A := 100000) (K := 128) (M := 32) (V c main_v25) (V c main_v26)) (V c main_v27)
    ((cfg0.win 2).blk t).view.emb j (((cfg0.win 3).blk t).view.emb j) ?_ ?_
  · refine prod_reindex (A := 10000) (K := 128) (M := 32) (A' := 100000) (M' := 32) (V c main_v25) (V c main_v26)
      ((cfg0.win 0).blk t).view.emb ((cfg0.win 1).blk t).view.emb j (((cfg0.win 3).blk t).view.emb j) (fun k => ?_) (fun k => ?_)
    · funext a; apply Fin.ext
      match a with
      | ⟨0, _⟩ => show win0_0.index t (0 : Fin 2) * 10000 + 1 * (j 0).val = win0_3.index t (0 : Fin 2) * 10000 + 1 * (j 0).val; omega
      | ⟨1, _⟩ => show win0_0.index t (1 : Fin 2) * 128 + 1 * k.val = k.val; omega
    · funext a; apply Fin.ext
      match a with
      | ⟨0, _⟩ => show win0_1.index t (0 : Fin 2) * 128 + 1 * k.val = k.val; omega
      | ⟨1, _⟩ => show win0_1.index t (1 : Fin 2) * 32 + 1 * (j 1).val = win0_3.index t (1 : Fin 2) * 32 + 1 * (j 1).val; omega
  · funext a; apply Fin.ext
    match a with
    | ⟨0, _⟩ => show win0_2.index t (0 : Fin 2) * 1 + 1 * 0 = 0; omega
    | ⟨1, _⟩ => show win0_2.index t (1 : Fin 2) * 32 + 1 * (j 1).val = win0_3.index t (1 : Fin 2) * 32 + 1 * (j 1).val; omega

/-- An index of the output array is in point t's block iff each coordinate is in the block's range on its axis. -/
theorem mem_blk (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v28).slice (win0_3.rect t)).set ↔ _
  rw [View.set_slice_whole, Rect.mem_set_unit]
  exact Iff.rfl

/-- Row r of the output lies in the block of point r / 10000. -/
theorem cover (i : S100000x32.Idx) : ∃ t : Fin cfg0.N, (cfg0.win 3).flush t = true ∧ i ∈ ((cfg0.win 3).blk t).view.set := by
  have hN : cfg0.N = 10 := N_0
  have hi0 : (i 0).val < 100000 := (i 0).isLt
  have hi1 : (i 1).val < 32 := (i 1).isLt
  obtain ⟨t, ht⟩ : ∃ t : Fin cfg0.N, t.val = (i 0).val / 10000 := ⟨⟨(i 0).val / 10000, by rw [hN]; omega⟩, rfl⟩
  obtain ⟨e0, e1, e2, e3, e4, e5, e6, e7⟩ := idx_facts t
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- The output array after the region: the shifted product of the whole matrices as the region found them. -/
theorem final (c : Dev nD) :
    (dat0 V c).arrAt 3 cfg0.N = shift (A := 100000) (M := 32) (prod (A := 100000) (K := 128) (M := 32) (V c main_v25) (V c main_v26)) (V c main_v27) :=
  (dat0 V c).arrAt_eq_of_cover 3 _ (fun t _ => flushed_eq V c t) cover

end Cert.KernelIdeal.Hand.R0

end
-- ==== Proof.Region1.lean ====
/-
  Region 1 of the kernel: a row-tiled matrix product.

  The grid has ten points; point t multiplies rows 10000·t … 10000·t + 9999 of the left matrix (128 columns) by the
  whole 128 × 64 right matrix and writes the result to the same rows of the output.  A block of rows of a product is
  the product of the block of rows, so after the ten points the output array is the product of the two whole
  matrices, entry (p, j) = Σ_k x (p, k) · w (k, j).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R1

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's record is a plain product: rows of the left factor against columns of the right one. -/
theorem hl0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem hl1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem hr0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem hr1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- One point's arithmetic: the matrix-unit product of the two blocks into a zero accumulator is their product. -/
theorem pay_eq (x0 : Vec Ideal S10000x128 .bf16) (x1 : Vec Ideal S128x64 .bf16) :
    k1_pay1 x0 x1 = prod (A := 10000) (K := 128) (M := 64) x0 x1 := by
  unfold k1_pay1
  dsimp only
  rw [shapeCast_self, shapeCast_self]
  exact matmul_zero_eq_prod dot_S10000x128_S128x64_S10000x64_1_0_0_1_n_n rfl rfl hl0 hl1 hr0 hr1 none x0 x1

/-- Where each window's block sits at point t: the left factor's and the output's at block row t, the right factor whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the whole matrices. -/
theorem flushed_eq (c : Dev nD) (t : Fin cfg1.N) :
    (dat1 V c).flushed 2 t = ((cfg1.win 2).blk t).view.read (Elt Ideal)
      (prod (A := 100000) (K := 128) (M := 64) (V c main_v29) (V c main_v30)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  rw [pay_eq]
  obtain ⟨e0, e1, e2, e3, e4, e5⟩ := idx_facts t
  funext j
  refine prod_reindex (A := 10000) (K := 128) (M := 64) (A' := 100000) (M' := 64) (V c main_v29) (V c main_v30)
    ((cfg1.win 0).blk t).view.emb ((cfg1.win 1).blk t).view.emb j (((cfg1.win 2).blk t).view.emb j) (fun k => ?_) (fun k => ?_)
  · funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega

/-- An index of the output array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v31).slice (win1_2.rect t)).set ↔ _
  rw [View.set_slice_whole, Rect.mem_set_unit]
  exact Iff.rfl

/-- Row r of the output lies in the block of point r / 10000. -/
theorem cover (i : S100000x64.Idx) : ∃ t : Fin cfg1.N, (cfg1.win 2).flush t = true ∧ i ∈ ((cfg1.win 2).blk t).view.set := by
  have hN : cfg1.N = 10 := N_1
  have hi0 : (i 0).val < 100000 := (i 0).isLt
  have hi1 : (i 1).val < 64 := (i 1).isLt
  obtain ⟨t, ht⟩ : ∃ t : Fin cfg1.N, t.val = (i 0).val / 10000 := ⟨⟨(i 0).val / 10000, by rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region: the product of the two whole matrices as the region found them. -/
theorem final (c : Dev nD) :
    (dat1 V c).arrAt 2 cfg1.N = prod (A := 100000) (K := 128) (M := 64) (V c main_v29) (V c main_v30) :=
  (dat1 V c).arrAt_eq_of_cover 2 _ (fun t _ => flushed_eq V c t) cover

end Cert.KernelIdeal.Hand.R1

end
-- ==== Proof.Region2.lean ====
/-
  Region 2 of the kernel: bias and rectifier, row-tiled.

  The grid has ten points; point t takes rows 10000·t … 10000·t + 9999 of the aggregated matrix, adds the one-row bias
  to each of them and takes the maximum with zero, writing the same rows of the output.  The operation is row-wise, so
  after the ten points the output array is bias-then-rectifier of the whole matrix, entry (p, j) =
  max (x (p, j) + b (0, j), 0).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R2

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One point's arithmetic: the block plus the bias row spread down its rows, then the maximum with a zero splat. -/
theorem pay_eq (x0 : Vec Ideal S10000x64 .f32) (x1 : Vec Ideal S1x64 .f32) :
    k2_pay1 x0 x1 = act (A := 10000) (M := 64) x0 x1 := by
  unfold k2_pay1
  dsimp only
  exact act_cast (A := 10000) (M := 64) x0 x1 _ _ _

/-- Where each window's block sits at point t: the matrix's and the output's at block row t, the bias row whole. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of bias-then-rectifier of the whole matrix. -/
theorem flushed_eq (c : Dev nD) (t : Fin cfg2.N) :
    (dat2 V c).flushed 2 t = ((cfg2.win 2).blk t).view.read (Elt Ideal)
      (act (A := 100000) (M := 64) (V c main_v44) (V c main_v45)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  rw [pay_eq]
  obtain ⟨e0, e1, e2, e3, e4, e5⟩ := idx_facts t
  funext j
  refine act_reindex (A := 10000) (M := 64) (A' := 100000) (V c main_v44) (V c main_v45)
    ((cfg2.win 0).blk t).view.emb ((cfg2.win 1).blk t).view.emb j (((cfg2.win 2).blk t).view.emb j) ?_ ?_
  · funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  · funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Row r of the output lies in the block of point r / 10000. -/
theorem cover (i : S100000x64.Idx) : ∃ t : Fin cfg2.N, (cfg2.win 2).flush t = true ∧ i ∈ ((cfg2.win 2).blk t).view.set := by
  have hN : cfg2.N = 10 := N_2
  have hi0 : (i 0).val < 100000 := (i 0).isLt
  have hi1 : (i 1).val < 64 := (i 1).isLt
  obtain ⟨t, ht⟩ : ∃ t : Fin cfg2.N, t.val = (i 0).val / 10000 := ⟨⟨(i 0).val / 10000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: bias-then-rectifier of the whole matrix as the region found it. -/
theorem final (c : Dev nD) :
    (dat2 V c).arrAt 2 cfg2.N = act (A := 100000) (M := 64) (V c main_v44) (V c main_v45) :=
  (dat2 V c).arrAt_eq_of_cover 2 _ (fun t _ => flushed_eq V c t) cover

end Cert.KernelIdeal.Hand.R2

end
-- ==== Proof.Region3.lean ====
/-
  Region 3 of the kernel: a row-tiled matrix product.

  The grid has ten points; point t multiplies rows 10000·t … 10000·t + 9999 of the left matrix (64 columns) by the
  whole 64 × 64 right matrix and writes the result to the same rows of the output.  A block of rows of a product is
  the product of the block of rows, so after the ten points the output array is the product of the two whole
  matrices, entry (p, j) = Σ_k x (p, k) · w (k, j).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R3

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's record is a plain product: rows of the left factor against columns of the right one. -/
theorem hl0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem hl1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem hr0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem hr1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- One point's arithmetic: the matrix-unit product of the two blocks into a zero accumulator is their product. -/
theorem pay_eq (x0 : Vec Ideal S10000x64 .bf16) (x1 : Vec Ideal S64x64 .bf16) :
    k3_pay1 x0 x1 = prod (A := 10000) (K := 64) (M := 64) x0 x1 := by
  unfold k3_pay1
  dsimp only
  rw [shapeCast_self, shapeCast_self]
  exact matmul_zero_eq_prod dot_S10000x64_S64x64_S10000x64_1_0_0_1_n_n rfl rfl hl0 hl1 hr0 hr1 none x0 x1

/-- Where each window's block sits at point t: the left factor's and the output's at block row t, the right factor whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the product of the whole matrices. -/
theorem flushed_eq (c : Dev nD) (t : Fin cfg3.N) :
    (dat3 V c).flushed 2 t = ((cfg3.win 2).blk t).view.read (Elt Ideal)
      (prod (A := 100000) (K := 64) (M := 64) (V c main_v47) (V c main_v48)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  rw [pay_eq]
  obtain ⟨e0, e1, e2, e3, e4, e5⟩ := idx_facts t
  funext j
  refine prod_reindex (A := 10000) (K := 64) (M := 64) (A' := 100000) (M' := 64) (V c main_v47) (V c main_v48)
    ((cfg3.win 0).blk t).view.emb ((cfg3.win 1).blk t).view.emb j (((cfg3.win 2).blk t).view.emb j) (fun k => ?_) (fun k => ?_)
  · funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  · funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega

/-- An index of the output array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v49).slice (win3_2.rect t)).set ↔ _
  rw [View.set_slice_whole, Rect.mem_set_unit]
  exact Iff.rfl

/-- Row r of the output lies in the block of point r / 10000. -/
theorem cover (i : S100000x64.Idx) : ∃ t : Fin cfg3.N, (cfg3.win 2).flush t = true ∧ i ∈ ((cfg3.win 2).blk t).view.set := by
  have hN : cfg3.N = 10 := N_3
  have hi0 : (i 0).val < 100000 := (i 0).isLt
  have hi1 : (i 1).val < 64 := (i 1).isLt
  obtain ⟨t, ht⟩ : ∃ t : Fin cfg3.N, t.val = (i 0).val / 10000 := ⟨⟨(i 0).val / 10000, by rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the product of the two whole matrices as the region found them. -/
theorem final (c : Dev nD) :
    (dat3 V c).arrAt 2 cfg3.N = prod (A := 100000) (K := 64) (M := 64) (V c main_v47) (V c main_v48) :=
  (dat3 V c).arrAt_eq_of_cover 2 _ (fun t _ => flushed_eq V c t) cover

end Cert.KernelIdeal.Hand.R3

end
-- ==== Proof.Region4.lean ====
/-
  Region 4 of the kernel: bias and rectifier, row-tiled.

  The grid has ten points; point t takes rows 10000·t … 10000·t + 9999 of the aggregated matrix, adds the one-row bias
  to each of them and takes the maximum with zero, writing the same rows of the output.  The operation is row-wise, so
  after the ten points the output array is bias-then-rectifier of the whole matrix, entry (p, j) =
  max (x (p, j) + b (0, j), 0).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R4

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One point's arithmetic: the block plus the bias row spread down its rows, then the maximum with a zero splat. -/
theorem pay_eq (x0 : Vec Ideal S10000x64 .f32) (x1 : Vec Ideal S1x64 .f32) :
    k4_pay1 x0 x1 = act (A := 10000) (M := 64) x0 x1 := by
  unfold k4_pay1
  dsimp only
  exact act_cast (A := 10000) (M := 64) x0 x1 _ _ _

/-- Where each window's block sits at point t: the matrix's and the output's at block row t, the bias row whole. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of bias-then-rectifier of the whole matrix. -/
theorem flushed_eq (c : Dev nD) (t : Fin cfg4.N) :
    (dat4 V c).flushed 2 t = ((cfg4.win 2).blk t).view.read (Elt Ideal)
      (act (A := 100000) (M := 64) (V c main_v62) (V c main_v63)) := by
  show (cfg4.win 2).cut (grid4.coords t) ((dat4 V c).after 2 t) = _
  rw [after4_2]
  unfold out4_2
  rw [View.canon_unit_zero hz]
  simp only [View.ld_unit_zero (S := S10000x64) hz, View.ld_unit_zero (S := S1x64) hz]
  rw [pay_eq]
  obtain ⟨e0, e1, e2, e3, e4, e5⟩ := idx_facts t
  funext j
  refine act_reindex (A := 10000) (M := 64) (A' := 100000) (V c main_v62) (V c main_v63)
    ((cfg4.win 0).blk t).view.emb ((cfg4.win 1).blk t).view.emb j (((cfg4.win 2).blk t).view.emb j) ?_ ?_
  · funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  · funext a; apply Fin.ext
    match a with
    | ⟨0, _⟩ => show win4_1.index t (0 : Fin 2) * 1 + 1 * 0 = 0; omega
    | ⟨1, _⟩ => show win4_1.index t (1 : Fin 2) * 64 + 1 * (j 1).val = win4_2.index t (1 : Fin 2) * 64 + 1 * (j 1).val; omega

/-- An index of the output array is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v64).slice (win4_2.rect t)).set ↔ _
  rw [View.set_slice_whole, Rect.mem_set_unit]
  exact Iff.rfl

/-- Row r of the output lies in the block of point r / 10000. -/
theorem cover (i : S100000x64.Idx) : ∃ t : Fin cfg4.N, (cfg4.win 2).flush t = true ∧ i ∈ ((cfg4.win 2).blk t).view.set := by
  have hN : cfg4.N = 10 := N_4
  have hi0 : (i 0).val < 100000 := (i 0).isLt
  have hi1 : (i 1).val < 64 := (i 1).isLt
  obtain ⟨t, ht⟩ : ∃ t : Fin cfg4.N, t.val = (i 0).val / 10000 := ⟨⟨(i 0).val / 10000, by rw [hN]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array after the region: bias-then-rectifier of the whole matrix as the region found it. -/
theorem final (c : Dev nD) :
    (dat4 V c).arrAt 2 cfg4.N = act (A := 100000) (M := 64) (V c main_v62) (V c main_v63) :=
  (dat4 V c).arrAt_eq_of_cover 2 _ (fun t _ => flushed_eq V c t) cover

end Cert.KernelIdeal.Hand.R4

end
-- ==== Proof.Region5.lean ====
/-
  Region 5 of the kernel: a row-tiled matrix product.

  The grid has ten points; point t multiplies rows 10000·t … 10000·t + 9999 of the left matrix (64 columns) by the
  whole 64 × 64 right matrix and writes the result to the same rows of the output.  A block of rows of a product is
  the product of the block of rows, so after the ten points the output array is the product of the two whole
  matrices, entry (p, j) = Σ_k x (p, k) · w (k, j).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R5

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's record is a plain product: rows of the left factor against columns of the right one. -/
theorem hl0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem hl1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem hr0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem hr1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- One point's arithmetic: the matrix-unit product of the two blocks into a zero accumulator is their product. -/
theorem pay_eq (x0 : Vec Ideal S10000x64 .bf16) (x1 : Vec Ideal S64x64 .bf16) :
    k5_pay1 x0 x1 = prod (A := 10000) (K := 64) (M := 64) x0 x1 := by
  unfold k5_pay1
  dsimp only
  rw [shapeCast_self, shapeCast_self]
  exact matmul_zero_eq_prod dot_S10000x64_S64x64_S10000x64_1_0_0_1_n_n rfl rfl hl0 hl1 hr0 hr1 none x0 x1

/-- Where each window's block sits at point t: the left factor's and the output's at block row t, the right factor whole. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the product of the whole matrices. -/
theorem flushed_eq (c : Dev nD) (t : Fin cfg5.N) :
    (dat5 V c).flushed 2 t = ((cfg5.win 2).blk t).view.read (Elt Ideal)
      (prod (A := 100000) (K := 64) (M := 64) (V c main_v65) (V c main_v66)) := by
  show (cfg5.win 2).cut (grid5.coords t) ((dat5 V c).after 2 t) = _
  rw [after5_2]
  unfold out5_2
  rw [View.canon_unit_zero hz]
  simp only [View.ld_unit_zero (S := S10000x64) hz, View.ld_unit_zero (S := S64x64) hz]
  rw [pay_eq]
  obtain ⟨e0, e1, e2, e3, e4, e5⟩ := idx_facts t
  funext j
  refine prod_reindex (A := 10000) (K := 64) (M := 64) (A' := 100000) (M' := 64) (V c main_v65) (V c main_v66)
    ((cfg5.win 0).blk t).view.emb ((cfg5.win 1).blk t).view.emb j (((cfg5.win 2).blk t).view.emb j) (fun k => ?_) (fun k => ?_)
  · funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * k.val = k.val; omega
  · funext a; apply Fin.ext
    match a with
    | ⟨0, _⟩ => show win5_1.index t (0 : Fin 2) * 64 + 1 * k.val = k.val; omega
    | ⟨1, _⟩ => show win5_1.index t (1 : Fin 2) * 64 + 1 * (j 1).val = win5_2.index t (1 : Fin 2) * 64 + 1 * (j 1).val; omega

/-- An index of the output array is in point t's block iff each coordinate is in the block's range on its axis. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v67).slice (win5_2.rect t)).set ↔ _
  rw [View.set_slice_whole, Rect.mem_set_unit]
  exact Iff.rfl

/-- Row r of the output lies in the block of point r / 10000. -/
theorem cover (i : S100000x64.Idx) : ∃ t : Fin cfg5.N, (cfg5.win 2).flush t = true ∧ i ∈ ((cfg5.win 2).blk t).view.set := by
  have hN : cfg5.N = 10 := N_5
  have hi0 : (i 0).val < 100000 := (i 0).isLt
  have hi1 : (i 1).val < 64 := (i 1).isLt
  obtain ⟨t, ht⟩ : ∃ t : Fin cfg5.N, t.val = (i 0).val / 10000 := ⟨⟨(i 0).val / 10000, by rw [hN]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the region: the product of the two whole matrices as the region found them. -/
theorem final (c : Dev nD) :
    (dat5 V c).arrAt 2 cfg5.N = prod (A := 100000) (K := 64) (M := 64) (V c main_v65) (V c main_v66) :=
  (dat5 V c).arrAt_eq_of_cover 2 _ (fun t _ => flushed_eq V c t) cover

end Cert.KernelIdeal.Hand.R5

end
-- ==== Proof.Region6.lean ====
/-
  Region 6 of the kernel: bias and rectifier, row-tiled.

  The grid has ten points; point t takes rows 10000·t … 10000·t + 9999 of the aggregated matrix, adds the one-row bias
  to each of them and takes the maximum with zero, writing the same rows of the output.  The operation is row-wise, so
  after the ten points the output array is bias-then-rectifier of the whole matrix, entry (p, j) =
  max (x (p, j) + b (0, j), 0).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R6

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One point's arithmetic: the block plus the bias row spread down its rows, then the maximum with a zero splat. -/
theorem pay_eq (x0 : Vec Ideal S10000x64 .f32) (x1 : Vec Ideal S1x64 .f32) :
    k6_pay1 x0 x1 = act (A := 10000) (M := 64) x0 x1 := by
  unfold k6_pay1
  dsimp only
  exact act_cast (A := 10000) (M := 64) x0 x1 _ _ _

/-- Where each window's block sits at point t: the matrix's and the output's at block row t, the bias row whole. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point t writes back is block t of bias-then-rectifier of the whole matrix. -/
theorem flushed_eq (c : Dev nD) (t : Fin cfg6.N) :
    (dat6 V c).flushed 2 t = ((cfg6.win 2).blk t).view.read (Elt Ideal)
      (act (A := 100000) (M := 64) (V c main_v80) (V c main_v81)) := by
  show (cfg6.win 2).cut (grid6.coords t) ((dat6 V c).after 2 t) = _
  rw [after6_2]
  unfold out6_2
  rw [View.canon_unit_zero hz]
  simp only [View.ld_unit_zero (S := S10000x64) hz, View.ld_unit_zero (S := S1x64) hz]
  rw [pay_eq]
  obtain ⟨e0, e1, e2, e3, e4, e5⟩ := idx_facts t
  funext j
  refine act_reindex (A := 10000) (M := 64) (A' := 100000) (V c main_v80) (V c main_v81)
    ((cfg6.win 0).blk t).view.emb ((cfg6.win 1).blk t).view.emb j (((cfg6.win 2).blk t).view.emb j) ?_ ?_
  · funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  · funext a; apply Fin.ext
    match a with
    | ⟨0, _⟩ => show win6_1.index t (0 : Fin 2) * 1 + 1 * 0 = 0; omega
    | ⟨1, _⟩ => show win6_1.index t (1 : Fin 2) * 64 + 1 * (j 1).val = win6_2.index t (1 : Fin 2) * 64 + 1 * (j 1).val; omega

/-- An index of the output array is in point t's block iff each coordinate is in the block's range on its axis. -/
theorem mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v82).slice (win6_2.rect t)).set ↔ _
  rw [View.set_slice_whole, Rect.mem_set_unit]
  exact Iff.rfl

/-- Row r of the output lies in the block of point r / 10000. -/
theorem cover (i : S100000x64.Idx) : ∃ t : Fin cfg6.N, (cfg6.win 2).flush t = true ∧ i ∈ ((cfg6.win 2).blk t).view.set := by
  have hN : cfg6.N = 10 := N_6
  have hi0 : (i 0).val < 100000 := (i 0).isLt
  have hi1 : (i 1).val < 64 := (i 1).isLt
  obtain ⟨t, ht⟩ : ∃ t : Fin cfg6.N, t.val = (i 0).val / 10000 := ⟨⟨(i 0).val / 10000, by rw [hN]; omega⟩, rfl⟩
  obtain ⟨e0, e1, e2, e3, e4, e5⟩ := idx_facts t
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- The output array after the region: bias-then-rectifier of the whole matrix as the region found it. -/
theorem final (c : Dev nD) :
    (dat6 V c).arrAt 2 cfg6.N = act (A := 100000) (M := 64) (V c main_v80) (V c main_v81) :=
  (dat6 V c).arrAt_eq_of_cover 2 _ (fun t _ => flushed_eq V c t) cover

end Cert.KernelIdeal.Hand.R6

end
-- ==== Proof.Region7.lean ====
/-
  Region 7 of the kernel: a row-tiled matrix product.

  The grid has ten points; point t multiplies rows 10000·t … 10000·t + 9999 of the left matrix (64 columns) by the
  whole 64 × 32 right matrix and writes the result to the same rows of the output.  A block of rows of a product is
  the product of the block of rows, so after the ten points the output array is the product of the two whole
  matrices, entry (p, j) = Σ_k x (p, k) · w (k, j).  Stated for any contents `V` of the buffers at the region's entry.
-/
import proofs.«123567_j45311904973170_1_alg».proof.Proof.Gen.KernelIdeal.Frame
import proofs.«123567_j45311904973170_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R7

open Cert.KernelIdeal Cert.KernelIdeal.Gen Cert.KernelIdeal.Facts₀ Cert.Dense Cert.RowBlocks Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's record is a plain product: rows of the left factor against columns of the right one. -/
theorem hl0 (i : S10000x32.Idx) (q : dot_S10000x64_S64x32_S10000x32_1_0_0_1_n_n.contr.Idx) : (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem hl1 (i : S10000x32.Idx) (q : dot_S10000x64_S64x32_S10000x32_1_0_0_1_n_n.contr.Idx) : (dot_S10000x64_S64x32_S10000x32_1_0_0_1_n_n.lhsIdx i q 1).val = (q ⟨0, by decide⟩).val :=
  dot_S10000x64_S64x32_S10000x32_1_0_0_1_n_n.lhsIdx_val_of_single rfl i q
theorem hr0 (i : S10000x32.Idx) (q : dot_S10000x64_S64x32_S10000x32_1_0_0_1_n_n.contr.Idx) : (dot_S10000x64_S64x32_S10000x32_1_0_0_1_n_n.rhsIdx i q 0).val = (q ⟨0, by decide⟩).val :=
  dot_S10000x64_S64x32_S10000x32_1_0_0_1_n_n.rhsIdx_val_of_single rfl i q
theorem hr1 (i : S10000x32.Idx) (q : dot_S10000x64_S64x32_S10000x32_1_0_0_1_n_n.contr.Idx) : (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- One point's arithmetic: the matrix-unit product of the two blocks into a zero accumulator is their product. -/
theorem pay_eq (x0 : Vec Ideal S10000x64 .bf16) (x1 : Vec Ideal S64x32 .bf16) :
    k7_pay1 x0 x1 = prod (A := 10000) (K := 64) (M := 32) x0 x1 := by
  unfold k7_pay1
  dsimp only
  rw [shapeCast_self, shapeCast_self]
  exact matmul_zero_eq_prod dot_S10000x64_S64x32_S10000x32_1_0_0_1_n_n rfl rfl hl0 hl1 hr0 hr1 none x0 x1

/-- Where each window's block sits at point t: the left factor's and the output's at block row t, the right factor whole. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of the product of the whole matrices. -/
theorem flushed_eq (c : Dev nD) (t : Fin cfg7.N) :
    (dat7 V c).flushed 2 t = ((cfg7.win 2).blk t).view.read (Elt Ideal)
      (prod (A := 100000) (K := 64) (M := 32) (V c main_v83) (V c main_v84)) := by
  show (cfg7.win 2).cut (grid7.coords t) ((dat7 V c).after 2 t) = _
  rw [after7_2]
  unfold out7_2
  rw [View.canon_unit_zero hz]
  simp only [View.ld_unit_zero (S := S10000x64) hz, View.ld_unit_zero (S := S64x32) hz]
  rw [pay_eq]
  obtain ⟨e0, e1, e2, e3, e4, e5⟩ := idx_facts t
  funext j
  refine prod_reindex (A := 10000) (K := 64) (M := 32) (A' := 100000) (M' := 32) (V c main_v83) (V c main_v84)
    ((cfg7.win 0).blk t).view.emb ((cfg7.win 1).blk t).view.emb j (((cfg7.win 2).blk t).view.emb j) (fun k => ?_) (fun k => ?_)
  · funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * k.val = k.val; omega
  · funext a; apply Fin.ext
    match a with
    | ⟨0, _⟩ => show win7_1.index t (0 : Fin 2) * 64 + 1 * k.val = k.val; omega
    | ⟨1, _⟩ => show win7_1.index t (1 : Fin 2) * 32 + 1 * (j 1).val = win7_2.index t (1 : Fin 2) * 32 + 1 * (j 1).val; omega

/-- An index of the output array is in point t's block iff each coordinate is in the block's range on its axis. -/
theorem mem_blk (t : Fin cfg7.N) (i : S100000x32.Idx) :
    i ∈ ((cfg7.win 2).blk t).view.set ↔ ∀ a : Fin 2, win7_2.index t a * S10000x32.size a ≤ (i a).val ∧ (i a).val < win7_2.index t a * S10000x32.size a + S10000x32.size a := by
  show i ∈ ((View.whole main_v85).slice (win7_2.rect t)).set ↔ _
  rw [View.set_slice_whole, Rect.mem_set_unit]
  exact Iff.rfl

/-- Row r of the output lies in the block of point r / 10000. -/
theorem cover (i : S100000x32.Idx) : ∃ t : Fin cfg7.N, (cfg7.win 2).flush t = true ∧ i ∈ ((cfg7.win 2).blk t).view.set := by
  have hN : cfg7.N = 10 := N_7
  have hi0 : (i 0).val < 100000 := (i 0).isLt
  have hi1 : (i 1).val < 32 := (i 1).isLt
  obtain ⟨t, ht⟩ : ∃ t : Fin cfg7.N, t.val = (i 0).val / 10000 := ⟨⟨(i 0).val / 10000, by rw [hN]; omega⟩, rfl⟩
  obtain ⟨e0, e1, e2, e3, e4, e5⟩ := idx_facts t
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 32 ≤ (i 1).val ∧ (i 1).val < win7_2.index t (1 : Fin 2) * 32 + 32; omega

/-- The output array after the region: the product of the two whole matrices as the region found them. -/
theorem final (c : Dev nD) :
    (dat7 V c).arrAt 2 cfg7.N = prod (A := 100000) (K := 64) (M := 32) (V c main_v83) (V c main_v84) :=
  (dat7 V c).arrAt_eq_of_cover 2 _ (fun t _ => flushed_eq V c t) cover

end Cert.KernelIdeal.Hand.R7

end
-- ==== Proof.Region8.lean ====
/-
  Region 8 of the kernel: the last layer's bias and the residual, row-tiled.

  The grid has ten points; point t takes rows 10000·t … 10000·t + 9999 of the aggregated matrix, adds the one-row bias
  to each of them and then adds the same rows of the residual matrix, writing the same rows of the output.  After the
  ten points the output array is, entry by entry, (x (p, j) + b (0, j)) + r (p, j).  Stated for any contents `V` of the
  buffers at the region's entry.
-/
import proofs.«123567_j45311904973170_1_alg».proof.Proof.Gen.KernelIdeal.Frame
import proofs.«123567_j45311904973170_1_alg».proof.Proof.LibRowBlocks
import proofs.«123567_j45311904973170_1_alg».proof.Proof.Pieces
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand.R8

open Cert.KernelIdeal Cert.KernelIdeal.Gen Cert.KernelIdeal.Facts₀ Cert.Dense Cert.RowBlocks Cert.Pieces Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- One point's arithmetic: the block plus the bias row spread down its rows, plus the residual's block. -/
theorem pay_eq (x0 : Vec Ideal S10000x32 .f32) (x1 : Vec Ideal S1x32 .f32) (x2 : Vec Ideal S10000x32 .f32) :
    k8_pay1 x0 x1 x2 = shiftAdd (A := 10000) (M := 32) x0 x1 x2 := by
  unfold k8_pay1
  dsimp only
  rw [shapeCast_self x0, shapeCast_self x2, shift_plain (A := 10000) (M := 32) x0 x1 _ _]
  rfl

/-- Where each window's block sits at point t. -/
theorem idx_facts : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0
    ∧ win8_3.index t (0 : Fin 2) = t.val
    ∧ win8_3.index t (1 : Fin 2) = 0 :=
  (by decide +kernel : ∀ t : Fin grid8.N, _)

/-- What point t writes back is block t of the whole-matrix function. -/
theorem flushed_eq (c : Dev nD) (t : Fin cfg8.N) :
    (dat8 V c).flushed 3 t = ((cfg8.win 3).blk t).view.read (Elt Ideal)
      (shiftAdd (A := 100000) (M := 32) (V c main_v98) (V c main_v99) (V c main_v28)) := by
  show (cfg8.win 3).cut (grid8.coords t) ((dat8 V c).after 3 t) = _
  rw [after8_3]
  unfold out8_3
  rw [View.canon_unit_zero hz]
  simp only [View.ld_unit_zero (S := S10000x32) hz, View.ld_unit_zero (S := S1x32) hz]
  rw [pay_eq]
  obtain ⟨e0, e1, e2, e3, e4, e5, e6, e7⟩ := idx_facts t
  funext j
  have h0 : ((cfg8.win 0).blk t).view.emb j = ((cfg8.win 3).blk t).view.emb j := by
    funext a; apply Fin.ext
    match a with
    | ⟨0, _⟩ => show win8_0.index t (0 : Fin 2) * 10000 + 1 * (j 0).val = win8_3.index t (0 : Fin 2) * 10000 + 1 * (j 0).val; omega
    | ⟨1, _⟩ => show win8_0.index t (1 : Fin 2) * 32 + 1 * (j 1).val = win8_3.index t (1 : Fin 2) * 32 + 1 * (j 1).val; omega
  have h2 : ((cfg8.win 2).blk t).view.emb j = ((cfg8.win 3).blk t).view.emb j := by
    funext a; apply Fin.ext
    match a with
    | ⟨0, _⟩ => show win8_2.index t (0 : Fin 2) * 10000 + 1 * (j 0).val = win8_3.index t (0 : Fin 2) * 10000 + 1 * (j 0).val; omega
    | ⟨1, _⟩ => show win8_2.index t (1 : Fin 2) * 32 + 1 * (j 1).val = win8_3.index t (1 : Fin 2) * 32 + 1 * (j 1).val; omega
  show shift (A := 10000) (M := 32) (iblk8 V c 0 t) (iblk8 V c 1 t) j + iblk8 V c 2 t j
      = shift (A := 100000) (M := 32) (V c main_v98) (V c main_v99) (((cfg8.win 3).blk t).view.emb j) + V c main_v28 (((cfg8.win 3).blk t).view.emb j)
  refine congrArg₂ (fun u v : EReal => u + v) ?_ ?_
  · refine shift_reindex (A := 10000) (M := 32) (A' := 100000) _ (V c main_v98) (V c main_v99)
      ((cfg8.win 1).blk t).view.emb j (((cfg8.win 3).blk t).view.emb j) ?_ ?_
    · show V c main_v98 (((cfg8.win 0).blk t).view.emb j) = V c main_v98 (((cfg8.win 3).blk t).view.emb j)
      rw [h0]
    · funext a; apply Fin.ext
      match a with
      | ⟨0, _⟩ => show win8_1.index t (0 : Fin 2) * 1 + 1 * 0 = 0; omega
      | ⟨1, _⟩ => show win8_1.index t (1 : Fin 2) * 32 + 1 * (j 1).val = win8_3.index t (1 : Fin 2) * 32 + 1 * (j 1).val; omega
  · show V c main_v28 (((cfg8.win 2).blk t).view.emb j) = V c main_v28 (((cfg8.win 3).blk t).view.emb j)
    rw [h2]

/-- An index of the output array is in point t's block iff each coordinate is in the block's range on its axis. -/
theorem mem_blk (t : Fin cfg8.N) (i : S100000x32.Idx) :
    i ∈ ((cfg8.win 3).blk t).view.set ↔ ∀ a : Fin 2, win8_3.index t a * S10000x32.size a ≤ (i a).val ∧ (i a).val < win8_3.index t a * S10000x32.size a + S10000x32.size a := by
  show i ∈ ((View.whole main_v100).slice (win8_3.rect t)).set ↔ _
  rw [View.set_slice_whole, Rect.mem_set_unit]
  exact Iff.rfl

/-- Row r of the output lies in the block of point r / 10000. -/
theorem cover (i : S100000x32.Idx) : ∃ t : Fin cfg8.N, (cfg8.win 3).flush t = true ∧ i ∈ ((cfg8.win 3).blk t).view.set := by
  have hN : cfg8.N = 10 := N_8
  have hi0 : (i 0).val < 100000 := (i 0).isLt
  have hi1 : (i 1).val < 32 := (i 1).isLt
  obtain ⟨t, ht⟩ : ∃ t : Fin cfg8.N, t.val = (i 0).val / 10000 := ⟨⟨(i 0).val / 10000, by rw [hN]; omega⟩, rfl⟩
  obtain ⟨e0, e1, e2, e3, e4, e5, e6, e7⟩ := idx_facts t
  refine ⟨t, flush8_3 t, ?_⟩
  rw [mem_blk]
  intro a
  match a with
  | ⟨0, _⟩ => show win8_3.index t (0 : Fin 2) * 10000 ≤ (i 0).val ∧ (i 0).val < win8_3.index t (0 : Fin 2) * 10000 + 10000; omega
  | ⟨1, _⟩ => show win8_3.index t (1 : Fin 2) * 32 ≤ (i 1).val ∧ (i 1).val < win8_3.index t (1 : Fin 2) * 32 + 32; omega

/-- The output array after the region. -/
theorem final (c : Dev nD) :
    (dat8 V c).arrAt 3 cfg8.N = shiftAdd (A := 100000) (M := 32) (V c main_v98) (V c main_v99) (V c main_v28) :=
  (dat8 V c).arrAt_eq_of_cover 3 _ (fun t _ => flushed_eq V c t) cover

end Cert.KernelIdeal.Hand.R8

end
-- ==== Proof.Chain.lean ====
/-
  The idealized kernel's buffers at the boundaries of its twenty segments, as functions of the argument arrays.

  Walking @main from the launch: the opening host operations leave the per-message coefficients; region 0 leaves the
  residual matrix; then four times a row-tiled product (a region), an aggregation along the messages (host
  operations), and bias with or without the rectifier (a region).  Each region's output array is the whole-matrix
  function of its input arrays (the region modules); a host stretch's results are its operations applied to what the
  boundary before it holds; a buffer nothing in between writes is carried across (Keep.lean).  At the last boundary
  the result array holds the network of Spec.lean applied to the arguments.  A change of float format on the way into
  a product is the identity on the extended reals.
-/
import proofs.«123567_j45311904973170_1_alg».proof.Proof.Gen.KernelIdeal.Frame
import proofs.«123567_j45311904973170_1_alg».proof.Proof.Keep
import proofs.«123567_j45311904973170_1_alg».proof.Proof.Spec
import proofs.«123567_j45311904973170_1_alg».proof.Proof.Region0
import proofs.«123567_j45311904973170_1_alg».proof.Proof.Region1
import proofs.«123567_j45311904973170_1_alg».proof.Proof.Region2
import proofs.«123567_j45311904973170_1_alg».proof.Proof.Region3
import proofs.«123567_j45311904973170_1_alg».proof.Proof.Region4
import proofs.«123567_j45311904973170_1_alg».proof.Proof.Region5
import proofs.«123567_j45311904973170_1_alg».proof.Proof.Region6
import proofs.«123567_j45311904973170_1_alg».proof.Proof.Region7
import proofs.«123567_j45311904973170_1_alg».proof.Proof.Region8
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand.Chain

open Cert.KernelIdeal Cert.KernelIdeal.Gen Cert.Spec Cert.Dense Cert.Pieces

variable (m : (ℓ : Loc nD τ sig) → Buf (Elt Ideal) ℓ) (ρ : Dev nD → PrngReg)

/-! ## The arguments, and the stages of the network on them -/

abbrev A0 (c : Dev nD) : FVec Ideal S100000x128 .f32 := m ((c : Thread nD τ).loc main_arg0)
abbrev A1 (c : Dev nD) : Nodes := m ((c : Thread nD τ).loc main_arg1)
abbrev A2 (c : Dev nD) : Nodes := m ((c : Thread nD τ).loc main_arg2)
abbrev A3 (c : Dev nD) : PerMessage := m ((c : Thread nD τ).loc main_arg3)
abbrev A4 (c : Dev nD) : FVec Ideal S128x64 .f32 := m ((c : Thread nD τ).loc main_arg4)
abbrev A5 (c : Dev nD) : FVec Ideal S64 .f32 := m ((c : Thread nD τ).loc main_arg5)
abbrev A6 (c : Dev nD) : FVec Ideal S64x64 .f32 := m ((c : Thread nD τ).loc main_arg6)
abbrev A7 (c : Dev nD) : FVec Ideal S64 .f32 := m ((c : Thread nD τ).loc main_arg7)
abbrev A8 (c : Dev nD) : FVec Ideal S64x64 .f32 := m ((c : Thread nD τ).loc main_arg8)
abbrev A9 (c : Dev nD) : FVec Ideal S64 .f32 := m ((c : Thread nD τ).loc main_arg9)
abbrev A10 (c : Dev nD) : FVec Ideal S64x32 .f32 := m ((c : Thread nD τ).loc main_arg10)
abbrev A11 (c : Dev nD) : FVec Ideal S32 .f32 := m ((c : Thread nD τ).loc main_arg11)
abbrev A12 (c : Dev nD) : FVec Ideal S128x32 .f32 := m ((c : Thread nD τ).loc main_arg12)
abbrev A13 (c : Dev nD) : FVec Ideal S32 .f32 := m ((c : Thread nD τ).loc main_arg13)

/-- The per-message coefficients. -/
abbrev CF (c : Dev nD) : PerMessage := coefficient (A1 m c) (A2 m c) (A3 m c)
/-- The residual matrix. -/
abbrev RES (c : Dev nD) : FVec Ideal S100000x32 .f32 := residual (A0 m c) (A12 m c) (A13 m c)
/-- The first, second and third layers' outputs. -/
abbrev O1 (c : Dev nD) : FVec Ideal S100000x64 .f32 := first (A0 m c) (A4 m c) (A5 m c) (A1 m c) (A2 m c) (CF m c)
abbrev O2 (c : Dev nD) : FVec Ideal S100000x64 .f32 := hidden (O1 m c) (A6 m c) (A7 m c) (A1 m c) (A2 m c) (CF m c)
abbrev O3 (c : Dev nD) : FVec Ideal S100000x64 .f32 := hidden (O2 m c) (A8 m c) (A9 m c) (A1 m c) (A2 m c) (CF m c)

/-! ## The arguments at the boundaries where a host stretch reads them -/

theorem arg0_at4 (c : Dev nD) : W4 m ρ c (Proc.devRef .tc main_arg0) = A0 m c :=
  (Keep.keep4 m ρ c main_arg0 (by decide)).trans <|
  (Keep.keep3 m ρ c main_arg0 (by decide)).trans <|
  (Keep.keep2 m ρ c main_arg0 (by decide)).trans <|
  (Keep.keep1 m ρ c main_arg0 (by decide)).trans rfl
theorem arg4_at4 (c : Dev nD) : W4 m ρ c (Proc.devRef .tc main_arg4) = A4 m c :=
  (Keep.keep4 m ρ c main_arg4 (by decide)).trans <|
  (Keep.keep3 m ρ c main_arg4 (by decide)).trans <|
  (Keep.keep2 m ρ c main_arg4 (by decide)).trans <|
  (Keep.keep1 m ρ c main_arg4 (by decide)).trans rfl
theorem arg1_at6 (c : Dev nD) : W6 m ρ c (Proc.devRef .tc main_arg1) = A1 m c :=
  (Keep.keep6 m ρ c main_arg1 (by decide)).trans <|
  (Keep.keep5 m ρ c main_arg1 (by decide)).trans <|
  (Keep.keep4 m ρ c main_arg1 (by decide)).trans <|
  (Keep.keep3 m ρ c main_arg1 (by decide)).trans <|
  (Keep.keep2 m ρ c main_arg1 (by decide)).trans <|
  (Keep.keep1 m ρ c main_arg1 (by decide)).trans rfl
theorem arg2_at6 (c : Dev nD) : W6 m ρ c (Proc.devRef .tc main_arg2) = A2 m c :=
  (Keep.keep6 m ρ c main_arg2 (by decide)).trans <|
  (Keep.keep5 m ρ c main_arg2 (by decide)).trans <|
  (Keep.keep4 m ρ c main_arg2 (by decide)).trans <|
  (Keep.keep3 m ρ c main_arg2 (by decide)).trans <|
  (Keep.keep2 m ρ c main_arg2 (by decide)).trans <|
  (Keep.keep1 m ρ c main_arg2 (by decide)).trans rfl
theorem arg5_at6 (c : Dev nD) : W6 m ρ c (Proc.devRef .tc main_arg5) = A5 m c :=
  (Keep.keep6 m ρ c main_arg5 (by decide)).trans <|
  (Keep.keep5 m ρ c main_arg5 (by decide)).trans <|
  (Keep.keep4 m ρ c main_arg5 (by decide)).trans <|
  (Keep.keep3 m ρ c main_arg5 (by decide)).trans <|
  (Keep.keep2 m ρ c main_arg5 (by decide)).trans <|
  (Keep.keep1 m ρ c main_arg5 (by decide)).trans rfl
theorem arg6_at8 (c : Dev nD) : W8 m ρ c (Proc.devRef .tc main_arg6) = A6 m c :=
  (Keep.keep8 m ρ c main_arg6 (by decide)).trans <|
  (Keep.keep7 m ρ c main_arg6 (by decide)).trans <|
  (Keep.keep6 m ρ c main_arg6 (by decide)).trans <|
  (Keep.keep5 m ρ c main_arg6 (by decide)).trans <|
  (Keep.keep4 m ρ c main_arg6 (by decide)).trans <|
  (Keep.keep3 m ρ c main_arg6 (by decide)).trans <|
  (Keep.keep2 m ρ c main_arg6 (by decide)).trans <|
  (Keep.keep1 m ρ c main_arg6 (by decide)).trans rfl
theorem arg1_at10 (c : Dev nD) : W10 m ρ c (Proc.devRef .tc main_arg1) = A1 m c :=
  (Keep.keep10 m ρ c main_arg1 (by decide)).trans <|
  (Keep.keep9 m ρ c main_arg1 (by decide)).trans <|
  (Keep.keep8 m ρ c main_arg1 (by decide)).trans <|
  (Keep.keep7 m ρ c main_arg1 (by decide)).trans <|
  (Keep.keep6 m ρ c main_arg1 (by decide)).trans <|
  (Keep.keep5 m ρ c main_arg1 (by decide)).trans <|
  (Keep.keep4 m ρ c main_arg1 (by decide)).trans <|
  (Keep.keep3 m ρ c main_arg1 (by decide)).trans <|
  (Keep.keep2 m ρ c main_arg1 (by decide)).trans <|
  (Keep.keep1 m ρ c main_arg1 (by decide)).trans rfl
theorem arg2_at10 (c : Dev nD) : W10 m ρ c (Proc.devRef .tc main_arg2) = A2 m c :=
  (Keep.keep10 m ρ c main_arg2 (by decide)).trans <|
  (Keep.keep9 m ρ c main_arg2 (by decide)).trans <|
  (Keep.keep8 m ρ c main_arg2 (by decide)).trans <|
  (Keep.keep7 m ρ c main_arg2 (by decide)).trans <|
  (Keep.keep6 m ρ c main_arg2 (by decide)).trans <|
  (Keep.keep5 m ρ c main_arg2 (by decide)).trans <|
  (Keep.keep4 m ρ c main_arg2 (by decide)).trans <|
  (Keep.keep3 m ρ c main_arg2 (by decide)).trans <|
  (Keep.keep2 m ρ c main_arg2 (by decide)).trans <|
  (Keep.keep1 m ρ c main_arg2 (by decide)).trans rfl
theorem arg7_at10 (c : Dev nD) : W10 m ρ c (Proc.devRef .tc main_arg7) = A7 m c :=
  (Keep.keep10 m ρ c main_arg7 (by decide)).trans <|
  (Keep.keep9 m ρ c main_arg7 (by decide)).trans <|
  (Keep.keep8 m ρ c main_arg7 (by decide)).trans <|
  (Keep.keep7 m ρ c main_arg7 (by decide)).trans <|
  (Keep.keep6 m ρ c main_arg7 (by decide)).trans <|
  (Keep.keep5 m ρ c main_arg7 (by decide)).trans <|
  (Keep.keep4 m ρ c main_arg7 (by decide)).trans <|
  (Keep.keep3 m ρ c main_arg7 (by decide)).trans <|
  (Keep.keep2 m ρ c main_arg7 (by decide)).trans <|
  (Keep.keep1 m ρ c main_arg7 (by decide)).trans rfl
theorem arg8_at12 (c : Dev nD) : W12 m ρ c (Proc.devRef .tc main_arg8) = A8 m c :=
  (Keep.keep12 m ρ c main_arg8 (by decide)).trans <|
  (Keep.keep11 m ρ c main_arg8 (by decide)).trans <|
  (Keep.keep10 m ρ c main_arg8 (by decide)).trans <|
  (Keep.keep9 m ρ c main_arg8 (by decide)).trans <|
  (Keep.keep8 m ρ c main_arg8 (by decide)).trans <|
  (Keep.keep7 m ρ c main_arg8 (by decide)).trans <|
  (Keep.keep6 m ρ c main_arg8 (by decide)).trans <|
  (Keep.keep5 m ρ c main_arg8 (by decide)).trans <|
  (Keep.keep4 m ρ c main_arg8 (by decide)).trans <|
  (Keep.keep3 m ρ c main_arg8 (by decide)).trans <|
  (Keep.keep2 m ρ c main_arg8 (by decide)).trans <|
  (Keep.keep1 m ρ c main_arg8 (by decide)).trans rfl
theorem arg1_at14 (c : Dev nD) : W14 m ρ c (Proc.devRef .tc main_arg1) = A1 m c :=
  (Keep.keep14 m ρ c main_arg1 (by decide)).trans <|
  (Keep.keep13 m ρ c main_arg1 (by decide)).trans <|
  (Keep.keep12 m ρ c main_arg1 (by decide)).trans <|
  (Keep.keep11 m ρ c main_arg1 (by decide)).trans <|
  (Keep.keep10 m ρ c main_arg1 (by decide)).trans <|
  (Keep.keep9 m ρ c main_arg1 (by decide)).trans <|
  (Keep.keep8 m ρ c main_arg1 (by decide)).trans <|
  (Keep.keep7 m ρ c main_arg1 (by decide)).trans <|
  (Keep.keep6 m ρ c main_arg1 (by decide)).trans <|
  (Keep.keep5 m ρ c main_arg1 (by decide)).trans <|
  (Keep.keep4 m ρ c main_arg1 (by decide)).trans <|
  (Keep.keep3 m ρ c main_arg1 (by decide)).trans <|
  (Keep.keep2 m ρ c main_arg1 (by decide)).trans <|
  (Keep.keep1 m ρ c main_arg1 (by decide)).trans rfl
theorem arg2_at14 (c : Dev nD) : W14 m ρ c (Proc.devRef .tc main_arg2) = A2 m c :=
  (Keep.keep14 m ρ c main_arg2 (by decide)).trans <|
  (Keep.keep13 m ρ c main_arg2 (by decide)).trans <|
  (Keep.keep12 m ρ c main_arg2 (by decide)).trans <|
  (Keep.keep11 m ρ c main_arg2 (by decide)).trans <|
  (Keep.keep10 m ρ c main_arg2 (by decide)).trans <|
  (Keep.keep9 m ρ c main_arg2 (by decide)).trans <|
  (Keep.keep8 m ρ c main_arg2 (by decide)).trans <|
  (Keep.keep7 m ρ c main_arg2 (by decide)).trans <|
  (Keep.keep6 m ρ c main_arg2 (by decide)).trans <|
  (Keep.keep5 m ρ c main_arg2 (by decide)).trans <|
  (Keep.keep4 m ρ c main_arg2 (by decide)).trans <|
  (Keep.keep3 m ρ c main_arg2 (by decide)).trans <|
  (Keep.keep2 m ρ c main_arg2 (by decide)).trans <|
  (Keep.keep1 m ρ c main_arg2 (by decide)).trans rfl
theorem arg9_at14 (c : Dev nD) : W14 m ρ c (Proc.devRef .tc main_arg9) = A9 m c :=
  (Keep.keep14 m ρ c main_arg9 (by decide)).trans <|
  (Keep.keep13 m ρ c main_arg9 (by decide)).trans <|
  (Keep.keep12 m ρ c main_arg9 (by decide)).trans <|
  (Keep.keep11 m ρ c main_arg9 (by decide)).trans <|
  (Keep.keep10 m ρ c main_arg9 (by decide)).trans <|
  (Keep.keep9 m ρ c main_arg9 (by decide)).trans <|
  (Keep.keep8 m ρ c main_arg9 (by decide)).trans <|
  (Keep.keep7 m ρ c main_arg9 (by decide)).trans <|
  (Keep.keep6 m ρ c main_arg9 (by decide)).trans <|
  (Keep.keep5 m ρ c main_arg9 (by decide)).trans <|
  (Keep.keep4 m ρ c main_arg9 (by decide)).trans <|
  (Keep.keep3 m ρ c main_arg9 (by decide)).trans <|
  (Keep.keep2 m ρ c main_arg9 (by decide)).trans <|
  (Keep.keep1 m ρ c main_arg9 (by decide)).trans rfl
theorem arg10_at16 (c : Dev nD) : W16 m ρ c (Proc.devRef .tc main_arg10) = A10 m c :=
  (Keep.keep16 m ρ c main_arg10 (by decide)).trans <|
  (Keep.keep15 m ρ c main_arg10 (by decide)).trans <|
  (Keep.keep14 m ρ c main_arg10 (by decide)).trans <|
  (Keep.keep13 m ρ c main_arg10 (by decide)).trans <|
  (Keep.keep12 m ρ c main_arg10 (by decide)).trans <|
  (Keep.keep11 m ρ c main_arg10 (by decide)).trans <|
  (Keep.keep10 m ρ c main_arg10 (by decide)).trans <|
  (Keep.keep9 m ρ c main_arg10 (by decide)).trans <|
  (Keep.keep8 m ρ c main_arg10 (by decide)).trans <|
  (Keep.keep7 m ρ c main_arg10 (by decide)).trans <|
  (Keep.keep6 m ρ c main_arg10 (by decide)).trans <|
  (Keep.keep5 m ρ c main_arg10 (by decide)).trans <|
  (Keep.keep4 m ρ c main_arg10 (by decide)).trans <|
  (Keep.keep3 m ρ c main_arg10 (by decide)).trans <|
  (Keep.keep2 m ρ c main_arg10 (by decide)).trans <|
  (Keep.keep1 m ρ c main_arg10 (by decide)).trans rfl
theorem arg1_at18 (c : Dev nD) : W18 m ρ c (Proc.devRef .tc main_arg1) = A1 m c :=
  (Keep.keep18 m ρ c main_arg1 (by decide)).trans <|
  (Keep.keep17 m ρ c main_arg1 (by decide)).trans <|
  (Keep.keep16 m ρ c main_arg1 (by decide)).trans <|
  (Keep.keep15 m ρ c main_arg1 (by decide)).trans <|
  (Keep.keep14 m ρ c main_arg1 (by decide)).trans <|
  (Keep.keep13 m ρ c main_arg1 (by decide)).trans <|
  (Keep.keep12 m ρ c main_arg1 (by decide)).trans <|
  (Keep.keep11 m ρ c main_arg1 (by decide)).trans <|
  (Keep.keep10 m ρ c main_arg1 (by decide)).trans <|
  (Keep.keep9 m ρ c main_arg1 (by decide)).trans <|
  (Keep.keep8 m ρ c main_arg1 (by decide)).trans <|
  (Keep.keep7 m ρ c main_arg1 (by decide)).trans <|
  (Keep.keep6 m ρ c main_arg1 (by decide)).trans <|
  (Keep.keep5 m ρ c main_arg1 (by decide)).trans <|
  (Keep.keep4 m ρ c main_arg1 (by decide)).trans <|
  (Keep.keep3 m ρ c main_arg1 (by decide)).trans <|
  (Keep.keep2 m ρ c main_arg1 (by decide)).trans <|
  (Keep.keep1 m ρ c main_arg1 (by decide)).trans rfl
theorem arg2_at18 (c : Dev nD) : W18 m ρ c (Proc.devRef .tc main_arg2) = A2 m c :=
  (Keep.keep18 m ρ c main_arg2 (by decide)).trans <|
  (Keep.keep17 m ρ c main_arg2 (by decide)).trans <|
  (Keep.keep16 m ρ c main_arg2 (by decide)).trans <|
  (Keep.keep15 m ρ c main_arg2 (by decide)).trans <|
  (Keep.keep14 m ρ c main_arg2 (by decide)).trans <|
  (Keep.keep13 m ρ c main_arg2 (by decide)).trans <|
  (Keep.keep12 m ρ c main_arg2 (by decide)).trans <|
  (Keep.keep11 m ρ c main_arg2 (by decide)).trans <|
  (Keep.keep10 m ρ c main_arg2 (by decide)).trans <|
  (Keep.keep9 m ρ c main_arg2 (by decide)).trans <|
  (Keep.keep8 m ρ c main_arg2 (by decide)).trans <|
  (Keep.keep7 m ρ c main_arg2 (by decide)).trans <|
  (Keep.keep6 m ρ c main_arg2 (by decide)).trans <|
  (Keep.keep5 m ρ c main_arg2 (by decide)).trans <|
  (Keep.keep4 m ρ c main_arg2 (by decide)).trans <|
  (Keep.keep3 m ρ c main_arg2 (by decide)).trans <|
  (Keep.keep2 m ρ c main_arg2 (by decide)).trans <|
  (Keep.keep1 m ρ c main_arg2 (by decide)).trans rfl
theorem arg11_at18 (c : Dev nD) : W18 m ρ c (Proc.devRef .tc main_arg11) = A11 m c :=
  (Keep.keep18 m ρ c main_arg11 (by decide)).trans <|
  (Keep.keep17 m ρ c main_arg11 (by decide)).trans <|
  (Keep.keep16 m ρ c main_arg11 (by decide)).trans <|
  (Keep.keep15 m ρ c main_arg11 (by decide)).trans <|
  (Keep.keep14 m ρ c main_arg11 (by decide)).trans <|
  (Keep.keep13 m ρ c main_arg11 (by decide)).trans <|
  (Keep.keep12 m ρ c main_arg11 (by decide)).trans <|
  (Keep.keep11 m ρ c main_arg11 (by decide)).trans <|
  (Keep.keep10 m ρ c main_arg11 (by decide)).trans <|
  (Keep.keep9 m ρ c main_arg11 (by decide)).trans <|
  (Keep.keep8 m ρ c main_arg11 (by decide)).trans <|
  (Keep.keep7 m ρ c main_arg11 (by decide)).trans <|
  (Keep.keep6 m ρ c main_arg11 (by decide)).trans <|
  (Keep.keep5 m ρ c main_arg11 (by decide)).trans <|
  (Keep.keep4 m ρ c main_arg11 (by decide)).trans <|
  (Keep.keep3 m ρ c main_arg11 (by decide)).trans <|
  (Keep.keep2 m ρ c main_arg11 (by decide)).trans <|
  (Keep.keep1 m ρ c main_arg11 (by decide)).trans rfl

/-! ## The opening host operations: the coefficients, and region 0's operands -/

/-! The selection between the inverse root and zero is a called function, whose operands and results are read through
    typed references to the same buffers: reading a buffer at its own type is the identity. -/
theorem read_v4 (p1 p2 p3) (v : IVec S100000 1) :
    (TRef.of (sig := sig) (T := ⟨S100000, .i1⟩) main_v4 p1 p2 p3).ofBuf (Val := Elt Ideal) v = v := rfl
theorem read_v7 (p1 p2 p3) (v : FVec Ideal S100000 .f32) :
    (TRef.of (sig := sig) (T := ⟨S100000, .f32⟩) main_v7 p1 p2 p3).ofBuf (Val := Elt Ideal) v = v := rfl
theorem read_zero (p1 p2 p3) (v : FVec Ideal S_ .f32) :
    (TRef.of (sig := sig) (T := ⟨S_, .f32⟩) main_cst_2 p1 p2 p3).ofBuf (Val := Elt Ideal) v = v := rfl
theorem read_c0 (p1 p2 p3) (v : FVec Ideal S_ .f32) :
    (TRef.of (sig := sig) (T := ⟨S_, .f32⟩) main_call0_v0 p1 p2 p3).ofBuf (Val := Elt Ideal) v = v := rfl
theorem write_c0 (p1 p2 p3) (v : FVec Ideal S_ .f32) :
    (TRef.of (sig := sig) (T := ⟨S_, .f32⟩) main_call0_v0 p1 p2 p3).toBuf (Val := Elt Ideal) v = v := rfl
theorem read_c1 (p1 p2 p3) (v : FVec Ideal S100000 .f32) :
    (TRef.of (sig := sig) (T := ⟨S100000, .f32⟩) main_call0_v1 p1 p2 p3).ofBuf (Val := Elt Ideal) v = v := rfl
theorem write_c1 (p1 p2 p3) (v : FVec Ideal S100000 .f32) :
    (TRef.of (sig := sig) (T := ⟨S100000, .f32⟩) main_call0_v1 p1 p2 p3).toBuf (Val := Elt Ideal) v = v := rfl
theorem write_v8 (p1 p2 p3) (v : FVec Ideal S100000 .f32) :
    (TRef.of (sig := sig) (T := ⟨S100000, .f32⟩) main_v8 p1 p2 p3).toBuf (Val := Elt Ideal) v = v := rfl

set_option maxHeartbeats 4000000 in
/-- The guarded inverse roots of the degrees, after the first two stretches. -/
theorem root_at2 (c : Dev nD) : W2 m ρ c (Proc.devRef .tc main_v8) = invRoot (A2 m c) (A3 m c) := by
  show StableHlo.after hostOps0_1 (W1 m ρ c) (Proc.devRef .tc main_v8) = _
  after_results
  rw [write_v8, read_v4, read_v7, read_c1, write_c1, read_c0, write_c0, read_zero]
  rfl
theorem arg1_at2 (c : Dev nD) : W2 m ρ c (Proc.devRef .tc main_arg1) = A1 m c :=
  (Keep.keep2 m ρ c main_arg1 (by decide)).trans <|
  (Keep.keep1 m ρ c main_arg1 (by decide)).trans rfl
theorem arg2_at2 (c : Dev nD) : W2 m ρ c (Proc.devRef .tc main_arg2) = A2 m c :=
  (Keep.keep2 m ρ c main_arg2 (by decide)).trans <|
  (Keep.keep1 m ρ c main_arg2 (by decide)).trans rfl
theorem arg3_at2 (c : Dev nD) : W2 m ρ c (Proc.devRef .tc main_arg3) = A3 m c :=
  (Keep.keep2 m ρ c main_arg3 (by decide)).trans <|
  (Keep.keep1 m ρ c main_arg3 (by decide)).trans rfl
set_option maxHeartbeats 4000000 in
theorem coef_at3 (c : Dev nD) : W3 m ρ c (Proc.devRef .tc main_v24) = CF m c := by
  have e8 := root_at2 m ρ c
  have e1 := arg1_at2 m ρ c
  have e2 := arg2_at2 m ρ c
  have e3 := arg3_at2 m ρ c
  show StableHlo.after hostOps0_2 (W2 m ρ c) (Proc.devRef .tc main_v24) = _
  generalize W2 m ρ c = X at e8 e1 e2 e3 ⊢
  after_results
  rw [e8, e1, e2, e3]
  rfl
theorem x25_at3 (c : Dev nD) : (W3 m ρ c (Proc.devRef .tc main_v25) : S100000x128.Idx → EReal) = A0 m c := by
  show StableHlo.after hostOps0_2 (W2 m ρ c) (Proc.devRef .tc main_v25) = _
  after_results
  rfl
theorem w26_at3 (c : Dev nD) : (W3 m ρ c (Proc.devRef .tc main_v26) : S128x32.Idx → EReal) = A12 m c := by
  show StableHlo.after hostOps0_2 (W2 m ρ c) (Proc.devRef .tc main_v26) = _
  after_results
  rfl
theorem b27_at3 (c : Dev nD) : W3 m ρ c (Proc.devRef .tc main_v27) = row32 (A13 m c) := by
  show StableHlo.after hostOps0_2 (W2 m ρ c) (Proc.devRef .tc main_v27) = _
  after_results
  rfl

/-- Region 0 leaves the residual matrix. -/
theorem res_at4 (c : Dev nD) : W4 m ρ c (Proc.devRef .tc main_v28) = RES m c :=
  (W4_arr m ρ c 3).trans ((R0.final (V3 m ρ) c).trans (by
    rw [show (V3 m ρ c main_v25 : S100000x128.Idx → EReal) = _ from x25_at3 m ρ c,
      show (V3 m ρ c main_v26 : S128x32.Idx → EReal) = _ from w26_at3 m ρ c,
      show V3 m ρ c main_v27 = _ from b27_at3 m ρ c]
    rfl))

/-- The coefficients are carried to every aggregation that reads them, the residual to the last region. -/
theorem coef_at6 (c : Dev nD) : W6 m ρ c (Proc.devRef .tc main_v24) = CF m c :=
  (Keep.keep6 m ρ c main_v24 (by decide)).trans <|
  (Keep.keep5 m ρ c main_v24 (by decide)).trans <|
  (Keep.keep4 m ρ c main_v24 (by decide)).trans (coef_at3 m ρ c)
theorem coef_at10 (c : Dev nD) : W10 m ρ c (Proc.devRef .tc main_v24) = CF m c :=
  (Keep.keep10 m ρ c main_v24 (by decide)).trans <|
  (Keep.keep9 m ρ c main_v24 (by decide)).trans <|
  (Keep.keep8 m ρ c main_v24 (by decide)).trans <|
  (Keep.keep7 m ρ c main_v24 (by decide)).trans <|
  (Keep.keep6 m ρ c main_v24 (by decide)).trans <|
  (Keep.keep5 m ρ c main_v24 (by decide)).trans <|
  (Keep.keep4 m ρ c main_v24 (by decide)).trans (coef_at3 m ρ c)
theorem coef_at14 (c : Dev nD) : W14 m ρ c (Proc.devRef .tc main_v24) = CF m c :=
  (Keep.keep14 m ρ c main_v24 (by decide)).trans <|
  (Keep.keep13 m ρ c main_v24 (by decide)).trans <|
  (Keep.keep12 m ρ c main_v24 (by decide)).trans <|
  (Keep.keep11 m ρ c main_v24 (by decide)).trans <|
  (Keep.keep10 m ρ c main_v24 (by decide)).trans <|
  (Keep.keep9 m ρ c main_v24 (by decide)).trans <|
  (Keep.keep8 m ρ c main_v24 (by decide)).trans <|
  (Keep.keep7 m ρ c main_v24 (by decide)).trans <|
  (Keep.keep6 m ρ c main_v24 (by decide)).trans <|
  (Keep.keep5 m ρ c main_v24 (by decide)).trans <|
  (Keep.keep4 m ρ c main_v24 (by decide)).trans (coef_at3 m ρ c)
theorem coef_at18 (c : Dev nD) : W18 m ρ c (Proc.devRef .tc main_v24) = CF m c :=
  (Keep.keep18 m ρ c main_v24 (by decide)).trans <|
  (Keep.keep17 m ρ c main_v24 (by decide)).trans <|
  (Keep.keep16 m ρ c main_v24 (by decide)).trans <|
  (Keep.keep15 m ρ c main_v24 (by decide)).trans <|
  (Keep.keep14 m ρ c main_v24 (by decide)).trans <|
  (Keep.keep13 m ρ c main_v24 (by decide)).trans <|
  (Keep.keep12 m ρ c main_v24 (by decide)).trans <|
  (Keep.keep11 m ρ c main_v24 (by decide)).trans <|
  (Keep.keep10 m ρ c main_v24 (by decide)).trans <|
  (Keep.keep9 m ρ c main_v24 (by decide)).trans <|
  (Keep.keep8 m ρ c main_v24 (by decide)).trans <|
  (Keep.keep7 m ρ c main_v24 (by decide)).trans <|
  (Keep.keep6 m ρ c main_v24 (by decide)).trans <|
  (Keep.keep5 m ρ c main_v24 (by decide)).trans <|
  (Keep.keep4 m ρ c main_v24 (by decide)).trans (coef_at3 m ρ c)
theorem res_at19 (c : Dev nD) : W19 m ρ c (Proc.devRef .tc main_v28) = RES m c :=
  (Keep.keep19 m ρ c main_v28 (by decide)).trans <|
  (Keep.keep18 m ρ c main_v28 (by decide)).trans <|
  (Keep.keep17 m ρ c main_v28 (by decide)).trans <|
  (Keep.keep16 m ρ c main_v28 (by decide)).trans <|
  (Keep.keep15 m ρ c main_v28 (by decide)).trans <|
  (Keep.keep14 m ρ c main_v28 (by decide)).trans <|
  (Keep.keep13 m ρ c main_v28 (by decide)).trans <|
  (Keep.keep12 m ρ c main_v28 (by decide)).trans <|
  (Keep.keep11 m ρ c main_v28 (by decide)).trans <|
  (Keep.keep10 m ρ c main_v28 (by decide)).trans <|
  (Keep.keep9 m ρ c main_v28 (by decide)).trans <|
  (Keep.keep8 m ρ c main_v28 (by decide)).trans <|
  (Keep.keep7 m ρ c main_v28 (by decide)).trans <|
  (Keep.keep6 m ρ c main_v28 (by decide)).trans <|
  (Keep.keep5 m ρ c main_v28 (by decide)).trans (res_at4 m ρ c)

/-! ## Layer 1 -/

theorem x1_at5 (c : Dev nD) : (W5 m ρ c (Proc.devRef .tc main_v29) : S100000x128.Idx → EReal) = A0 m c := by
  show StableHlo.after hostOps1 (W4 m ρ c) (Proc.devRef .tc main_v29) = _
  after_results
  exact arg0_at4 m ρ c
theorem w1_at5 (c : Dev nD) : (W5 m ρ c (Proc.devRef .tc main_v30) : S128x64.Idx → EReal) = A4 m c := by
  show StableHlo.after hostOps1 (W4 m ρ c) (Proc.devRef .tc main_v30) = _
  after_results
  exact arg4_at4 m ρ c

/-- Region 1 leaves the product with the layer's weights. -/
theorem h1_at6 (c : Dev nD) : W6 m ρ c (Proc.devRef .tc main_v31) = prod (A := 100000) (K := 128) (M := 64) (A0 m c) (A4 m c) :=
  (W6_arr m ρ c 2).trans ((R1.final (V5 m ρ) c).trans (by
    rw [show (V5 m ρ c main_v29 : S100000x128.Idx → EReal) = _ from x1_at5 m ρ c,
      show (V5 m ρ c main_v30 : S128x64.Idx → EReal) = _ from w1_at5 m ρ c]))

set_option maxHeartbeats 4000000 in
/-- The host operations between the two regions aggregate the product along the messages and re-lay the bias as a row. -/
theorem g1_at7 (c : Dev nD) : W7 m ρ c (Proc.devRef .tc main_v44)
    = aggregate64 (prod (A := 100000) (K := 128) (M := 64) (A0 m c) (A4 m c)) (A1 m c) (A2 m c) (CF m c) := by
  have e1 := arg1_at6 m ρ c
  have e2 := arg2_at6 m ρ c
  have eh := h1_at6 m ρ c
  have ec := coef_at6 m ρ c
  show StableHlo.after hostOps2 (W6 m ρ c) (Proc.devRef .tc main_v44) = _
  generalize W6 m ρ c = X at e1 e2 eh ec ⊢
  after_results
  rw [e1, e2, eh, ec]
  rfl
set_option maxHeartbeats 4000000 in
theorem b1_at7 (c : Dev nD) : W7 m ρ c (Proc.devRef .tc main_v45) = row64 (A5 m c) := by
  show StableHlo.after hostOps2 (W6 m ρ c) (Proc.devRef .tc main_v45) = _
  after_results
  rw [arg5_at6 m ρ c]
  rfl

/-- Region 2 adds the bias and takes the maximum with zero: the layer's output. -/
theorem o1_at8 (c : Dev nD) : W8 m ρ c (Proc.devRef .tc main_v46) = O1 m c :=
  (W8_arr m ρ c 2).trans ((R2.final (V7 m ρ) c).trans (by
    rw [show V7 m ρ c main_v44 = _ from g1_at7 m ρ c,
      show V7 m ρ c main_v45 = _ from b1_at7 m ρ c]
    rfl))

/-! ## Layer 2 -/

theorem x2_at9 (c : Dev nD) : (W9 m ρ c (Proc.devRef .tc main_v47) : S100000x64.Idx → EReal) = O1 m c := by
  show StableHlo.after hostOps3 (W8 m ρ c) (Proc.devRef .tc main_v47) = _
  after_results
  exact o1_at8 m ρ c
theorem w2_at9 (c : Dev nD) : (W9 m ρ c (Proc.devRef .tc main_v48) : S64x64.Idx → EReal) = A6 m c := by
  show StableHlo.after hostOps3 (W8 m ρ c) (Proc.devRef .tc main_v48) = _
  after_results
  exact arg6_at8 m ρ c

/-- Region 3 leaves the product with the layer's weights. -/
theorem h2_at10 (c : Dev nD) : W10 m ρ c (Proc.devRef .tc main_v49) = prod (A := 100000) (K := 64) (M := 64) (O1 m c) (A6 m c) :=
  (W10_arr m ρ c 2).trans ((R3.final (V9 m ρ) c).trans (by
    rw [show (V9 m ρ c main_v47 : S100000x64.Idx → EReal) = _ from x2_at9 m ρ c,
      show (V9 m ρ c main_v48 : S64x64.Idx → EReal) = _ from w2_at9 m ρ c]))

set_option maxHeartbeats 4000000 in
/-- The host operations between the two regions aggregate the product along the messages and re-lay the bias as a row. -/
theorem g2_at11 (c : Dev nD) : W11 m ρ c (Proc.devRef .tc main_v62)
    = aggregate64 (prod (A := 100000) (K := 64) (M := 64) (O1 m c) (A6 m c)) (A1 m c) (A2 m c) (CF m c) := by
  have e1 := arg1_at10 m ρ c
  have e2 := arg2_at10 m ρ c
  have eh := h2_at10 m ρ c
  have ec := coef_at10 m ρ c
  show StableHlo.after hostOps4 (W10 m ρ c) (Proc.devRef .tc main_v62) = _
  generalize W10 m ρ c = X at e1 e2 eh ec ⊢
  after_results
  rw [e1, e2, eh, ec]
  rfl
set_option maxHeartbeats 4000000 in
theorem b2_at11 (c : Dev nD) : W11 m ρ c (Proc.devRef .tc main_v63) = row64 (A7 m c) := by
  show StableHlo.after hostOps4 (W10 m ρ c) (Proc.devRef .tc main_v63) = _
  after_results
  rw [arg7_at10 m ρ c]
  rfl

/-- Region 4 adds the bias and takes the maximum with zero: the layer's output. -/
theorem o2_at12 (c : Dev nD) : W12 m ρ c (Proc.devRef .tc main_v64) = O2 m c :=
  (W12_arr m ρ c 2).trans ((R4.final (V11 m ρ) c).trans (by
    rw [show V11 m ρ c main_v62 = _ from g2_at11 m ρ c,
      show V11 m ρ c main_v63 = _ from b2_at11 m ρ c]
    rfl))

/-! ## Layer 3 -/

theorem x3_at13 (c : Dev nD) : (W13 m ρ c (Proc.devRef .tc main_v65) : S100000x64.Idx → EReal) = O2 m c := by
  show StableHlo.after hostOps5 (W12 m ρ c) (Proc.devRef .tc main_v65) = _
  after_results
  exact o2_at12 m ρ c
theorem w3_at13 (c : Dev nD) : (W13 m ρ c (Proc.devRef .tc main_v66) : S64x64.Idx → EReal) = A8 m c := by
  show StableHlo.after hostOps5 (W12 m ρ c) (Proc.devRef .tc main_v66) = _
  after_results
  exact arg8_at12 m ρ c

/-- Region 5 leaves the product with the layer's weights. -/
theorem h3_at14 (c : Dev nD) : W14 m ρ c (Proc.devRef .tc main_v67) = prod (A := 100000) (K := 64) (M := 64) (O2 m c) (A8 m c) :=
  (W14_arr m ρ c 2).trans ((R5.final (V13 m ρ) c).trans (by
    rw [show (V13 m ρ c main_v65 : S100000x64.Idx → EReal) = _ from x3_at13 m ρ c,
      show (V13 m ρ c main_v66 : S64x64.Idx → EReal) = _ from w3_at13 m ρ c]))

set_option maxHeartbeats 4000000 in
/-- The host operations between the two regions aggregate the product along the messages and re-lay the bias as a row. -/
theorem g3_at15 (c : Dev nD) : W15 m ρ c (Proc.devRef .tc main_v80)
    = aggregate64 (prod (A := 100000) (K := 64) (M := 64) (O2 m c) (A8 m c)) (A1 m c) (A2 m c) (CF m c) := by
  have e1 := arg1_at14 m ρ c
  have e2 := arg2_at14 m ρ c
  have eh := h3_at14 m ρ c
  have ec := coef_at14 m ρ c
  show StableHlo.after hostOps6 (W14 m ρ c) (Proc.devRef .tc main_v80) = _
  generalize W14 m ρ c = X at e1 e2 eh ec ⊢
  after_results
  rw [e1, e2, eh, ec]
  rfl
set_option maxHeartbeats 4000000 in
theorem b3_at15 (c : Dev nD) : W15 m ρ c (Proc.devRef .tc main_v81) = row64 (A9 m c) := by
  show StableHlo.after hostOps6 (W14 m ρ c) (Proc.devRef .tc main_v81) = _
  after_results
  rw [arg9_at14 m ρ c]
  rfl

/-- Region 6 adds the bias and takes the maximum with zero: the layer's output. -/
theorem o3_at16 (c : Dev nD) : W16 m ρ c (Proc.devRef .tc main_v82) = O3 m c :=
  (W16_arr m ρ c 2).trans ((R6.final (V15 m ρ) c).trans (by
    rw [show V15 m ρ c main_v80 = _ from g3_at15 m ρ c,
      show V15 m ρ c main_v81 = _ from b3_at15 m ρ c]
    rfl))

/-! ## Layer 4 -/

theorem x4_at17 (c : Dev nD) : (W17 m ρ c (Proc.devRef .tc main_v83) : S100000x64.Idx → EReal) = O3 m c := by
  show StableHlo.after hostOps7 (W16 m ρ c) (Proc.devRef .tc main_v83) = _
  after_results
  exact o3_at16 m ρ c
theorem w4_at17 (c : Dev nD) : (W17 m ρ c (Proc.devRef .tc main_v84) : S64x32.Idx → EReal) = A10 m c := by
  show StableHlo.after hostOps7 (W16 m ρ c) (Proc.devRef .tc main_v84) = _
  after_results
  exact arg10_at16 m ρ c

/-- Region 7 leaves the product with the layer's weights. -/
theorem h4_at18 (c : Dev nD) : W18 m ρ c (Proc.devRef .tc main_v85) = prod (A := 100000) (K := 64) (M := 32) (O3 m c) (A10 m c) :=
  (W18_arr m ρ c 2).trans ((R7.final (V17 m ρ) c).trans (by
    rw [show (V17 m ρ c main_v83 : S100000x64.Idx → EReal) = _ from x4_at17 m ρ c,
      show (V17 m ρ c main_v84 : S64x32.Idx → EReal) = _ from w4_at17 m ρ c]))

set_option maxHeartbeats 4000000 in
/-- The host operations between the two regions aggregate the product along the messages and re-lay the bias as a row. -/
theorem g4_at19 (c : Dev nD) : W19 m ρ c (Proc.devRef .tc main_v98)
    = aggregate32 (prod (A := 100000) (K := 64) (M := 32) (O3 m c) (A10 m c)) (A1 m c) (A2 m c) (CF m c) := by
  have e1 := arg1_at18 m ρ c
  have e2 := arg2_at18 m ρ c
  have eh := h4_at18 m ρ c
  have ec := coef_at18 m ρ c
  show StableHlo.after hostOps8 (W18 m ρ c) (Proc.devRef .tc main_v98) = _
  generalize W18 m ρ c = X at e1 e2 eh ec ⊢
  after_results
  rw [e1, e2, eh, ec]
  rfl
set_option maxHeartbeats 4000000 in
theorem b4_at19 (c : Dev nD) : W19 m ρ c (Proc.devRef .tc main_v99) = row32 (A11 m c) := by
  show StableHlo.after hostOps8 (W18 m ρ c) (Proc.devRef .tc main_v99) = _
  after_results
  rw [arg11_at18 m ρ c]
  rfl

/-- Region 8 adds the bias and the residual: the network's result. -/
theorem result_at20 (c : Dev nD) : W20 m ρ c (Proc.devRef .tc main_v100)
    = network (A0 m c) (A1 m c) (A2 m c) (A3 m c) (A4 m c) (A5 m c) (A6 m c) (A7 m c) (A8 m c) (A9 m c) (A10 m c) (A11 m c) (A12 m c) (A13 m c) :=
  (W20_arr m ρ c 3).trans ((R8.final (V19 m ρ) c).trans (by
    rw [show V19 m ρ c main_v98 = _ from g4_at19 m ρ c,
      show V19 m ρ c main_v99 = _ from b4_at19 m ρ c,
      show V19 m ρ c main_v28 = _ from res_at19 m ρ c]
    rfl))

end Cert.KernelIdeal.Hand.Chain

end
-- ==== Proof.RefSide.lean ====
/-
  The reference program's result is the network of Spec.lean applied to its arguments.

  The reference's @main is one line of host operations, and its run ends with the result at their composed term.
  That term is the specification's, stage by stage: the index arithmetic, the gathers and the scatter-adds are the
  same operations (with the reference's own dimension records, which say the same as the kernel's); a `dot_general`
  contracting the columns of its left operand against the rows of its right one is the matrix product; a bias vector
  broadcast to one row and then down the rows, added, is the bias step (and with the maximum against a broadcast zero,
  bias-then-rectifier); and the final sum of the last layer and the residual is the entrywise sum.  Nothing here uses
  more of the extended reals than that the two spellings of each step are one function.
-/
import proofs.«123567_j45311904973170_1_alg».proof.Proof.Gen.ReferenceIdeal.Read
import proofs.«123567_j45311904973170_1_alg».proof.Proof.Spec

set_option maxRecDepth 16384

noncomputable section

open Idealize.ShloMosaic Idealize.ShloMosaic.TcCoe Idealize.SL.Sem

namespace Cert.ReferenceIdeal.Hand

open Cert.ReferenceIdeal Cert.ReferenceIdeal.Facts₀ Cert.ReferenceIdeal.Value Cert.Dense Cert.Pieces

/-! ## The reference's stages, in its own spelling -/

/-- The per-message coefficients as the reference computes them. -/
def coefRef (x1 x2 : IVec S1600000 32) (x3 : FVec Ideal S1600000 .f32) : FVec Ideal S1600000 .f32 :=
  mulf (F := Ideal) (mulf (F := Ideal) (x3) (Host.gather gather_S100000_S1600000x1_S1600000_n_0_n_n_0_1_1 (select (cmpf (F := Ideal) .ogt (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x2)) (x3)) (broadcastInDim S100000 ![] bcast_S_S100000 (constant (F := Ideal) S_ .f32 0x00000000#32))) (Host.rsqrt (F := Ideal) (maximumf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x2)) (x3)) (broadcastInDim S100000 ![] bcast_S_S100000 (constant (F := Ideal) S_ .f32 0x2B8CBCCC#32)))) (broadcastInDim S100000 ![] bcast_S_S100000 (id (constant (F := Ideal) S_ .f32 0x00000000#32)))) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1))))) (Host.gather gather_S100000_S1600000x1_S1600000_n_0_n_n_0_1_1 (select (cmpf (F := Ideal) .ogt (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x2)) (x3)) (broadcastInDim S100000 ![] bcast_S_S100000 (constant (F := Ideal) S_ .f32 0x00000000#32))) (Host.rsqrt (F := Ideal) (maximumf (F := Ideal) (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x2)) (x3)) (broadcastInDim S100000 ![] bcast_S_S100000 (constant (F := Ideal) S_ .f32 0x2B8CBCCC#32)))) (broadcastInDim S100000 ![] bcast_S_S100000 (id (constant (F := Ideal) S_ .f32 0x00000000#32)))) (broadcastInDim S1600000x1 ![0] bcast_S1600000_S1600000x1_0 (select (cmpi .slt (x2) (broadcastInDim S1600000 ![] bcast_S_S1600000 (constantI S_ 32 0#32))) (addi (x2) (broadcastInDim S1600000 ![] bcast_S_S1600000 (constantI S_ 32 100000#32))) (x2))))

/-- The first layer as the reference computes it. -/
def firstRef (x0 : FVec Ideal S100000x128 .f32) (w : FVec Ideal S128x64 .f32) (b : FVec Ideal S64 .f32)
    (x1 x2 : IVec S1600000 32) (cf : FVec Ideal S1600000 .f32) : FVec Ideal S100000x64 .f32 :=
  maximumf (F := Ideal) (addf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (x2)) (mulf (F := Ideal) (Host.gather gather_S100000x64_S1600000x1_S1600000x64_1_0_n_n_0_1_164 (Host.dotGeneral (F := Ideal) dot_S100000x128_S128x64_S100000x64_1_0_0_1_n_n none (x0) (w)) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1)))) (broadcastInDim S1600000x64 ![0, 1] bcast_S1600000x1_S1600000x64_0_1 (broadcastInDim S1600000x1 ![0] bcast_S1600000_S1600000x1_0 (cf))))) (broadcastInDim S100000x64 ![0, 1] bcast_S1x64_S100000x64_0_1 (broadcastInDim S1x64 ![1] bcast_S64_S1x64_1 (b)))) (broadcastInDim S100000x64 ![] bcast_S_S100000x64 (constant (F := Ideal) S_ .f32 0x00000000#32))

/-- A hidden layer as the reference computes it. -/
def hiddenRef (x : FVec Ideal S100000x64 .f32) (w : FVec Ideal S64x64 .f32) (b : FVec Ideal S64 .f32)
    (x1 x2 : IVec S1600000 32) (cf : FVec Ideal S1600000 .f32) : FVec Ideal S100000x64 .f32 :=
  maximumf (F := Ideal) (addf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (x2)) (mulf (F := Ideal) (Host.gather gather_S100000x64_S1600000x1_S1600000x64_1_0_n_n_0_1_164 (Host.dotGeneral (F := Ideal) dot_S100000x64_S64x64_S100000x64_1_0_0_1_n_n none (x) (w)) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1)))) (broadcastInDim S1600000x64 ![0, 1] bcast_S1600000x1_S1600000x64_0_1 (broadcastInDim S1600000x1 ![0] bcast_S1600000_S1600000x1_0 (cf))))) (broadcastInDim S100000x64 ![0, 1] bcast_S1x64_S100000x64_0_1 (broadcastInDim S1x64 ![1] bcast_S64_S1x64_1 (b)))) (broadcastInDim S100000x64 ![] bcast_S_S100000x64 (constant (F := Ideal) S_ .f32 0x00000000#32))

/-- The residual branch as the reference computes it. -/
def residualRef (x0 : FVec Ideal S100000x128 .f32) (w : FVec Ideal S128x32 .f32) (b : FVec Ideal S32 .f32) :
    FVec Ideal S100000x32 .f32 :=
  addf (F := Ideal) (Host.dotGeneral (F := Ideal) dot_S100000x128_S128x32_S100000x32_1_0_0_1_n_n none (x0) (w)) (broadcastInDim S100000x32 ![0, 1] bcast_S1x32_S100000x32_0_1 (broadcastInDim S1x32 ![1] bcast_S32_S1x32_1 (b)))

/-- The last layer plus a residual matrix as the reference computes it. -/
def lastRef (x : FVec Ideal S100000x64 .f32) (w : FVec Ideal S64x32 .f32) (b : FVec Ideal S32 .f32)
    (x1 x2 : IVec S1600000 32) (cf : FVec Ideal S1600000 .f32) (r : FVec Ideal S100000x32 .f32) : FVec Ideal S100000x32 .f32 :=
  addf (F := Ideal) (addf (F := Ideal) (Host.scatterAdd (F := Ideal) scatter_S100000x32_S1600000x1_S1600000x32_1_0_0_1 (broadcastInDim S100000x32 ![] bcast_S_S100000x32 (constant (F := Ideal) S_ .f32 0x00000000#32)) (broadcastInDim S1600000x1 ![0] bcast_S1600000_S1600000x1_0 (x2)) (mulf (F := Ideal) (Host.gather gather_S100000x32_S1600000x1_S1600000x32_1_0_n_n_0_1_132 (Host.dotGeneral (F := Ideal) dot_S100000x64_S64x32_S100000x32_1_0_0_1_n_n none (x) (w)) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1)))) (broadcastInDim S1600000x32 ![0, 1] bcast_S1600000x1_S1600000x32_0_1 (broadcastInDim S1600000x1 ![0] bcast_S1600000_S1600000x1_0 (cf))))) (broadcastInDim S100000x32 ![0, 1] bcast_S1x32_S100000x32_0_1 (broadcastInDim S1x32 ![1] bcast_S32_S1x32_1 (b)))) r

/-! ## Each stage is the specification's -/

theorem coefRef_eq (x1 x2 : IVec S1600000 32) (x3 : FVec Ideal S1600000 .f32) :
    coefRef x1 x2 x3 = Cert.Spec.coefficient x1 x2 x3 := rfl

/-- A bias vector broadcast along axis 1 into one row is the vector re-laid as one row. -/
theorem row64_eq (b : FVec Ideal S64 .f32) :
    broadcastInDim S1x64 ![1] bcast_S64_S1x64_1 b = Cert.Spec.row64 b :=
  (row_cast_eq_broadcast (n := 64) b Cert.KernelIdeal.Facts₀.shapeCasts_S64_S1x64 bcast_S64_S1x64_1).symm
theorem row32_eq (b : FVec Ideal S32 .f32) :
    broadcastInDim S1x32 ![1] bcast_S32_S1x32_1 b = Cert.Spec.row32 b :=
  (row_cast_eq_broadcast (n := 32) b Cert.KernelIdeal.Facts₀.shapeCasts_S32_S1x32 bcast_S32_S1x32_1).symm

theorem firstRef_eq (x0 : FVec Ideal S100000x128 .f32) (w : FVec Ideal S128x64 .f32) (b : FVec Ideal S64 .f32)
    (x1 x2 : IVec S1600000 32) (cf : FVec Ideal S1600000 .f32) :
    firstRef x0 w b x1 x2 cf = Cert.Spec.first x0 w b x1 x2 cf := by
  unfold firstRef Cert.Spec.first
  rw [dotGeneral_eq_prod dot_S100000x128_S128x64_S100000x64_1_0_0_1_n_n rfl rfl Read.lhs_main_v29_0 Read.lhs_main_v29_1 Read.rhs_main_v29_0 Read.rhs_main_v29_1 none x0 w,
    host_act (A := 100000) (M := 64) _ _ bcast_S1x64_S100000x64_0_1 bcast_S_S100000x64, row64_eq]
  rfl

theorem hiddenRef_eq (x : FVec Ideal S100000x64 .f32) (w : FVec Ideal S64x64 .f32) (b : FVec Ideal S64 .f32)
    (x1 x2 : IVec S1600000 32) (cf : FVec Ideal S1600000 .f32) :
    hiddenRef x w b x1 x2 cf = Cert.Spec.hidden x w b x1 x2 cf := by
  unfold hiddenRef Cert.Spec.hidden
  rw [dotGeneral_eq_prod dot_S100000x64_S64x64_S100000x64_1_0_0_1_n_n rfl rfl Read.lhs_main_v47_0 Read.lhs_main_v47_1 Read.rhs_main_v47_0 Read.rhs_main_v47_1 none x w,
    host_act (A := 100000) (M := 64) _ _ bcast_S1x64_S100000x64_0_1 bcast_S_S100000x64, row64_eq]
  rfl

theorem residualRef_eq (x0 : FVec Ideal S100000x128 .f32) (w : FVec Ideal S128x32 .f32) (b : FVec Ideal S32 .f32) :
    residualRef x0 w b = Cert.Spec.residual x0 w b := by
  unfold residualRef Cert.Spec.residual
  rw [dotGeneral_eq_prod dot_S100000x128_S128x32_S100000x32_1_0_0_1_n_n rfl rfl Read.lhs_main_v25_0 Read.lhs_main_v25_1 Read.rhs_main_v25_0 Read.rhs_main_v25_1 none x0 w,
    host_shift (A := 100000) (M := 32) _ _ bcast_S1x32_S100000x32_0_1, row32_eq]

theorem lastRef_eq (x : FVec Ideal S100000x64 .f32) (w : FVec Ideal S64x32 .f32) (b : FVec Ideal S32 .f32)
    (x1 x2 : IVec S1600000 32) (cf : FVec Ideal S1600000 .f32) (r : FVec Ideal S100000x32 .f32) :
    lastRef x w b x1 x2 cf r = Cert.Spec.last x w b x1 x2 cf r := by
  unfold lastRef Cert.Spec.last
  rw [dotGeneral_eq_prod dot_S100000x64_S64x32_S100000x32_1_0_0_1_n_n rfl rfl Read.lhs_main_v83_0 Read.lhs_main_v83_1 Read.rhs_main_v83_0 Read.rhs_main_v83_1 none x w,
    host_shift (A := 100000) (M := 32) _ _ bcast_S1x32_S100000x32_0_1, row32_eq, addf_shift_eq]
  rfl

/-! ## The run's result -/

variable (m : (ℓ : Loc nD τ sig) → Buf (Elt Ideal) ℓ)

abbrev B0 (c : Dev nD) : FVec Ideal S100000x128 .f32 := m ((c.tc : Thread nD τ).loc main_arg0)
abbrev B1 (c : Dev nD) : IVec S1600000 32 := m ((c.tc : Thread nD τ).loc main_arg1)
abbrev B2 (c : Dev nD) : IVec S1600000 32 := m ((c.tc : Thread nD τ).loc main_arg2)
abbrev B3 (c : Dev nD) : FVec Ideal S1600000 .f32 := m ((c.tc : Thread nD τ).loc main_arg3)
abbrev B4 (c : Dev nD) : FVec Ideal S128x64 .f32 := m ((c.tc : Thread nD τ).loc main_arg4)
abbrev B5 (c : Dev nD) : FVec Ideal S64 .f32 := m ((c.tc : Thread nD τ).loc main_arg5)
abbrev B6 (c : Dev nD) : FVec Ideal S64x64 .f32 := m ((c.tc : Thread nD τ).loc main_arg6)
abbrev B7 (c : Dev nD) : FVec Ideal S64 .f32 := m ((c.tc : Thread nD τ).loc main_arg7)
abbrev B8 (c : Dev nD) : FVec Ideal S64x64 .f32 := m ((c.tc : Thread nD τ).loc main_arg8)
abbrev B9 (c : Dev nD) : FVec Ideal S64 .f32 := m ((c.tc : Thread nD τ).loc main_arg9)
abbrev B10 (c : Dev nD) : FVec Ideal S64x32 .f32 := m ((c.tc : Thread nD τ).loc main_arg10)
abbrev B11 (c : Dev nD) : FVec Ideal S32 .f32 := m ((c.tc : Thread nD τ).loc main_arg11)
abbrev B12 (c : Dev nD) : FVec Ideal S128x32 .f32 := m ((c.tc : Thread nD τ).loc main_arg12)
abbrev B13 (c : Dev nD) : FVec Ideal S32 .f32 := m ((c.tc : Thread nD τ).loc main_arg13)

/-- The composed term the reference's run ends at is its stages, composed. -/
theorem res_stages (c : Dev nD) : res_main_v100 (F := Ideal) m c
    = lastRef (hiddenRef (hiddenRef (firstRef (B0 m c) (B4 m c) (B5 m c) (B1 m c) (B2 m c) (coefRef (B1 m c) (B2 m c) (B3 m c)))
          (B6 m c) (B7 m c) (B1 m c) (B2 m c) (coefRef (B1 m c) (B2 m c) (B3 m c)))
        (B8 m c) (B9 m c) (B1 m c) (B2 m c) (coefRef (B1 m c) (B2 m c) (B3 m c)))
      (B10 m c) (B11 m c) (B1 m c) (B2 m c) (coefRef (B1 m c) (B2 m c) (B3 m c)) (residualRef (B0 m c) (B12 m c) (B13 m c)) := by
  unfold res_main_v100
  rfl

/-- The reference's result is the network applied to its arguments. -/
theorem res_eq (c : Dev nD) : res_main_v100 (F := Ideal) m c
    = Cert.Spec.network (B0 m c) (B1 m c) (B2 m c) (B3 m c) (B4 m c) (B5 m c) (B6 m c) (B7 m c) (B8 m c) (B9 m c) (B10 m c) (B11 m c) (B12 m c) (B13 m c) := by
  rw [res_stages, coefRef_eq, firstRef_eq, hiddenRef_eq, hiddenRef_eq, residualRef_eq, lastRef_eq]
  rfl

end Cert.ReferenceIdeal.Hand

end
-- ==== Proof.lean ====
/- The proof of `Cert.Claim`: a four-layer graph convolution with a linear residual branch, computed by a program of
   nine row-tiled kernel regions among host gathers and scatter-adds, equals its plain reference on the extended reals.

   Both programs compute the same steps in the same order.  The weighted in-degrees, their guarded inverse square
   roots, the per-message coefficients and every aggregation along the messages are the same host operations in both.
   The kernel does the dense steps — five matrix products, three bias-then-rectifier steps, the last bias and the
   residual sum — ten thousand rows at a time; each is row-wise, so the blocks assemble to the whole-matrix function
   (Region0 … Region8), and walking the program's twenty segments gives its result array as the network of Spec.lean
   applied to the arguments (Chain.lean, over the run of KernelRun.lean).  The reference's composed term is the same
   network: a `dot_general` is the product, a broadcast bias added is the bias step (RefSide.lean).  No law of the
   extended reals beyond that is used, so the precondition is never opened.  The three frames are the generated ones
   (the reference's is its run with the result dropped), and the idealization rewrote nothing, so `preserves` is `True`. -/
import proofs.«123567_j45311904973170_1_alg».proof.Defs
import proofs.«123567_j45311904973170_1_alg».proof.Proof.Gen.Kernel
import proofs.«123567_j45311904973170_1_alg».proof.Proof.Gen.Kernel.Skeleton
import proofs.«123567_j45311904973170_1_alg».proof.Proof.Gen.Kernel.Launch
import proofs.«123567_j45311904973170_1_alg».proof.Proof.Gen.Kernel.Points
import proofs.«123567_j45311904973170_1_alg».proof.Proof.Gen.Kernel.Frame
import proofs.«123567_j45311904973170_1_alg».proof.Proof.Gen.KernelIdeal
import proofs.«123567_j45311904973170_1_alg».proof.Proof.Gen.KernelIdeal.Skeleton
import proofs.«123567_j45311904973170_1_alg».proof.Proof.Gen.KernelIdeal.Launch
import proofs.«123567_j45311904973170_1_alg».proof.Proof.Gen.KernelIdeal.Points
import proofs.«123567_j45311904973170_1_alg».proof.Proof.Gen.KernelIdeal.Frame
import proofs.«123567_j45311904973170_1_alg».proof.Proof.Gen.ReferenceIdeal
import proofs.«123567_j45311904973170_1_alg».proof.Proof.Gen.ReferenceIdeal.Run
import proofs.«123567_j45311904973170_1_alg».proof.Proof.Gen.Pre_finite_inputs
import proofs.«123567_j45311904973170_1_alg».proof.Proof.KernelRun
import proofs.«123567_j45311904973170_1_alg».proof.Proof.Chain
import proofs.«123567_j45311904973170_1_alg».proof.Proof.RefSide
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the network of the (agreeing) arguments. -/
theorem algebraic : Cert.algebraic_KernelIdeal_ReferenceIdeal := by
  intro m ρ m' ρ' _ hagree
  refine ⟨fun c => Cert.Spec.network (Cert.KernelIdeal.Hand.Chain.A0 m c) (Cert.KernelIdeal.Hand.Chain.A1 m c) (Cert.KernelIdeal.Hand.Chain.A2 m c) (Cert.KernelIdeal.Hand.Chain.A3 m c) (Cert.KernelIdeal.Hand.Chain.A4 m c) (Cert.KernelIdeal.Hand.Chain.A5 m c) (Cert.KernelIdeal.Hand.Chain.A6 m c) (Cert.KernelIdeal.Hand.Chain.A7 m c) (Cert.KernelIdeal.Hand.Chain.A8 m c) (Cert.KernelIdeal.Hand.Chain.A9 m c) (Cert.KernelIdeal.Hand.Chain.A10 m c) (Cert.KernelIdeal.Hand.Chain.A11 m c) (Cert.KernelIdeal.Hand.Chain.A12 m c) (Cert.KernelIdeal.Hand.Chain.A13 m c), ?_, ?_⟩
  · exact (θ_run Cert.KernelIdeal.defs _ _).mono
      (fun r h c => ⟨(h c).1.trans (Cert.KernelIdeal.Hand.Chain.result_at20 m ρ c), (h c).2⟩)
      (Cert.KernelIdeal.Hand.Run.run_named (F := Ideal) m ρ)
  · refine (θ_run Cert.ReferenceIdeal.defs _ _).mono (fun r h c => ⟨(h c).1.trans ?_, (h c).2⟩)
      (Cert.ReferenceIdeal.Value.run (F := Ideal) m' ρ')
    have e := Cert.ReferenceIdeal.Hand.res_eq m' c
    obtain ⟨e0, e1, e2, e3, e4, e5, e6, e7, e8, e9, e10, e11, e12, e13⟩ := hagree c
    dsimp only [Cert.ReferenceIdeal.Hand.B0, Cert.ReferenceIdeal.Hand.B1, Cert.ReferenceIdeal.Hand.B2, Cert.ReferenceIdeal.Hand.B3, Cert.ReferenceIdeal.Hand.B4, Cert.ReferenceIdeal.Hand.B5, Cert.ReferenceIdeal.Hand.B6, Cert.ReferenceIdeal.Hand.B7, Cert.ReferenceIdeal.Hand.B8, Cert.ReferenceIdeal.Hand.B9, Cert.ReferenceIdeal.Hand.B10, Cert.ReferenceIdeal.Hand.B11, Cert.ReferenceIdeal.Hand.B12, Cert.ReferenceIdeal.Hand.B13] at e
    rw [e0, e1, e2, e3, e4, e5, e6, e7, e8, e9, e10, e11, e12, e13] at e
    exact e

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
